-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x500 : Shape := ⟨2, ![100000, 500]⟩
abbrev S2x1600000 : Shape := ⟨2, ![2, 1600000]⟩
abbrev S500x128 : Shape := ⟨2, ![500, 128]⟩
abbrev S128 : Shape := ⟨1, ![128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x500 : S_.BroadcastsInDim S100000x500 (![] : Fin 0 → Fin S100000x500.rank)
  reducesTo_S100000x500_S_d0_1 : S100000x500.ReducesTo [0, 1] S_
  h_S_ : 0 < S_.numel
  bcast_S_S500x128 : S_.BroadcastsInDim S500x128 (![] : Fin 0 → Fin S500x128.rank)
  reducesTo_S500x128_S_d0_1 : S500x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S64 .f32) (main_arg6 : FVec F S64x40 .f32) (main_arg7 : FVec F S40 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x40 .f32 := Host.absf main_arg6
  let main_cst_8 : FVec F S_ .f32 := constant S_ .f32 0x7F800000#32
  let main_v25 : FVec F S64x40 .f32 := broadcastInDim S64x40 ![] bcast_S_S64x40 main_cst_8
  let main_v26 : IVec S64x40 1 := cmpf .olt main_v24 main_v25
  let main_c_9 : IVec S_ 1 := constantI S_ 1 1#1
  let main_v27 : IVec S_ 1 := (fun x v => Host.reduce IntOp.andi x v reducesTo_S64x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x500 .f32) (main_arg1 : IVec S2x1600000 32) (main_arg2 : FVec F S500x128 .f32) (main_arg3 : FVec F S128 .f32) (main_arg4 : FVec F S128x64 .f32) (main_arg5 : FVec F S64 .f32) (main_arg6 : FVec F S64x40 .f32) (main_arg7 : FVec F S40 .f32) : IVec S_ 1 :=
  let main_v0 : FVec F S100000x500 .f32 := Host.absf main_arg0
  let main_cst : FVec F S_ .f32 := constant S_ .f32 0x7F800000#32
  let main_v1 : FVec F S100000x500 .f32 := broadcastInDim S100000x500 ![] bcast_S_S100000x500 main_cst
  let main_v2 : IVec S100000x500 1 := cmpf .olt main_v0 main_v1
  let main_c : IVec S_ 1 := constantI S_ 1 1#1
  let main_v3 : IVec S_ 1 := (fun x v => Host.reduce IntOp.andi x v reducesTo_S100000x500_S_d0_1 h_S_) main_v2 main_c
  let main_v4 : FVec F S500x128 .f32 := Host.absf main_arg2
  let main_cst_0 : FVec F S_ .f32 := constant S_ .f32 0x7F800000#32
  let main_v5 : FVec F S500x128 .f32 := broadcastInDim S500x128 ![] bcast_S_S500x128 main_cst_0
  let main_v6 : IVec S500x128 1 := cmpf .olt main_v4 main_v5
  let main_c_1 : IVec S_ 1 := constantI S_ 1 1#1
  let main_v7 : IVec S_ 1 := (fun x v => Host.reduce IntOp.andi x v reducesTo_S500x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S100000x500 : Shape := ⟨2, ![100000, 500]⟩
abbrev S2x1600000 : Shape := ⟨2, ![2, 1600000]⟩
abbrev S500x128 : Shape := ⟨2, ![500, 128]⟩
abbrev S128 : Shape := ⟨1, ![128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S10000x500 : Shape := ⟨2, ![10000, 500]⟩
abbrev S10000x128 : Shape := ⟨2, ![10000, 128]⟩
abbrev S1700000x128 : Shape := ⟨2, ![1700000, 128]⟩
abbrev S1x128 : Shape := ⟨2, ![1, 128]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩
abbrev S100000x40 : Shape := ⟨2, ![100000, 40]⟩
abbrev S10000x40 : Shape := ⟨2, ![10000, 40]⟩
abbrev S1700000x40 : Shape := ⟨2, ![1700000, 40]⟩
abbrev S1x40 : Shape := ⟨2, ![1, 40]⟩
abbrev S100000x1 : Shape := ⟨2, ![100000, 1]⟩

abbrev nBuf : Space → Nat
  | .hbm => 126
  | .vmem => 15
  | .smem => 0
  | _ => 0

abbrev bufTy : (tb : Table) → Fin (tcTables nBuf tb) → BufTy
  | .hbm, ⟨0, _⟩ => ⟨S100000x500, .f32⟩
  | .hbm, ⟨1, _⟩ => ⟨S2x1600000, .i32⟩
  | .hbm, ⟨2, _⟩ => ⟨S500x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x40, .f32⟩
  | .hbm, ⟨7, _⟩ => ⟨S40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1700000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S1700000x1, .f32⟩
  | .hbm, ⟨42, _⟩ => ⟨S100000x500, .bf16⟩
  | .hbm, ⟨43, _⟩ => ⟨S500x128, .bf16⟩
  | .hbm, ⟨44, _⟩ => ⟨S100000x128, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x128, .f32⟩
  | .hbm, ⟨54, _⟩ => ⟨S1700000x128, .f32⟩
  | .hbm, ⟨55, _⟩ => ⟨S1700000x128, .f32⟩
  | .hbm, ⟨56, _⟩ => ⟨S_, .f32⟩
  | .hbm, ⟨57, _⟩ => ⟨S100000x128, .f32⟩
  | .hbm, ⟨58, _⟩ => ⟨S1700000x1, .i32⟩
  | .hbm, ⟨59, _⟩ => ⟨S100000x128, .f32⟩
  | .hbm, ⟨60, _⟩ => ⟨S1x128, .f32⟩
  | .hbm, ⟨61, _⟩ => ⟨S100000x128, .f32⟩
  | .hbm, ⟨62, _⟩ => ⟨S100000x128, .f32⟩
  | .hbm, ⟨63, _⟩ => ⟨S_, .f32⟩
  | .hbm, ⟨64, _⟩ => ⟨S100000x128, .f32⟩
  | .hbm, ⟨65, _⟩ => ⟨S100000x128, .f32⟩
  | .hbm, ⟨66, _⟩ => ⟨S100000x128, .bf16⟩
  | .hbm, ⟨67, _⟩ => ⟨S128x64, .bf16⟩
  | .hbm, ⟨68, _⟩ => ⟨S100000x64, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x64, .f32⟩
  | .hbm, ⟨78, _⟩ => ⟨S1700000x64, .f32⟩
  | .hbm, ⟨79, _⟩ => ⟨S1700000x64, .f32⟩
  | .hbm, ⟨80, _⟩ => ⟨S_, .f32⟩
  | .hbm, ⟨81, _⟩ => ⟨S100000x64, .f32⟩
  | .hbm, ⟨82, _⟩ => ⟨S1700000x1, .i32⟩
  | .hbm, ⟨83, _⟩ => ⟨S100000x64, .f32⟩
  | .hbm, ⟨84, _⟩ => ⟨S1x64, .f32⟩
  | .hbm, ⟨85, _⟩ => ⟨S100000x64, .f32⟩
  | .hbm, ⟨86, _⟩ => ⟨S100000x64, .f32⟩
  | .hbm, ⟨87, _⟩ => ⟨S_, .f32⟩
  | .hbm, ⟨88, _⟩ => ⟨S100000x64, .f32⟩
  | .hbm, ⟨89, _⟩ => ⟨S100000x64, .f32⟩
  | .hbm, ⟨90, _⟩ => ⟨S100000x64, .bf16⟩
  | .hbm, ⟨91, _⟩ => ⟨S64x40, .bf16⟩
  | .hbm, ⟨92, _⟩ => ⟨S100000x40, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000x40, .f32⟩
  | .hbm, ⟨102, _⟩ => ⟨S1700000x40, .f32⟩
  | .hbm, ⟨103, _⟩ => ⟨S1700000x40, .f32⟩
  | .hbm, ⟨104, _⟩ => ⟨S_, .f32⟩
  | .hbm, ⟨105, _⟩ => ⟨S100000x40, .f32⟩
  | .hbm, ⟨106, _⟩ => ⟨S1700000x1, .i32⟩
  | .hbm, ⟨107, _⟩ => ⟨S100000x40, .f32⟩
  | .hbm, ⟨108, _⟩ => ⟨S1x40, .f32⟩
  | .hbm, ⟨109, _⟩ => ⟨S100000x40, .f32⟩
  | .hbm, ⟨110, _⟩ => ⟨S100000x40, .f32⟩
  | .hbm, ⟨111, _⟩ => ⟨S_, .f32⟩
  | .hbm, ⟨112, _⟩ => ⟨S100000, .f32⟩
  | .hbm, ⟨113, _⟩ => ⟨S_, .f32⟩
  | .hbm, ⟨114, _⟩ => ⟨S100000, .f32⟩
  | .hbm, ⟨115, _⟩ => ⟨S100000, .f32⟩
  | .hbm, ⟨116, _⟩ => ⟨S100000x1, .f32⟩
  | .hbm, ⟨117, _⟩ => ⟨S100000x40, .f32⟩
  | .hbm, ⟨118, _⟩ => ⟨S100000x40, .f32⟩
  | .hbm, ⟨119, _⟩ => ⟨S100000x40, .f32⟩
  | .hbm, ⟨120, _⟩ => ⟨S_, .f32⟩
  | .hbm, ⟨121, _⟩ => ⟨S100000, .f32⟩
  | .hbm, ⟨122, _⟩ => ⟨S100000x1, .f32⟩
  | .hbm, ⟨123, _⟩ => ⟨S100000x1, .f32⟩
  | .hbm, ⟨124, _⟩ => ⟨S100000x40, .f32⟩
  | .hbm, ⟨125, _⟩ => ⟨S100000x40, .f32⟩
  | .local _ .vmem, ⟨0, _⟩ => ⟨S10000x500, .bf16⟩
  | .local _ .vmem, ⟨1, _⟩ => ⟨S10000x500, .bf16⟩
  | .local _ .vmem, ⟨2, _⟩ => ⟨S500x128, .bf16⟩
  | .local _ .vmem, ⟨3, _⟩ => ⟨S10000x128, .f32⟩
  | .local _ .vmem, ⟨4, _⟩ => ⟨S10000x128, .f32⟩
  | .local _ .vmem, ⟨5, _⟩ => ⟨S10000x128, .bf16⟩
  | .local _ .vmem, ⟨6, _⟩ => ⟨S10000x128, .bf16⟩
  | .local _ .vmem, ⟨7, _⟩ => ⟨S128x64, .bf16⟩
  | .local _ .vmem, ⟨8, _⟩ => ⟨S10000x64, .f32⟩
  | .local _ .vmem, ⟨9, _⟩ => ⟨S10000x64, .f32⟩
  | .local _ .vmem, ⟨10, _⟩ => ⟨S10000x64, .bf16⟩
  | .local _ .vmem, ⟨11, _⟩ => ⟨S10000x64, .bf16⟩
  | .local _ .vmem, ⟨12, _⟩ => ⟨S64x40, .bf16⟩
  | .local _ .vmem, ⟨13, _⟩ => ⟨S10000x40, .f32⟩
  | .local _ .vmem, ⟨14, _⟩ => ⟨S10000x40, .f32⟩
  | _, _ => ⟨S100000x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_v31 : Ref sig .tc := ⟨.hbm, 46, rfl⟩
abbrev main_v32 : Ref sig .tc := ⟨.hbm, 47, rfl⟩
abbrev main_c_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_call0_cst : Ref sig .tc := ⟨.hbm, 63, rfl⟩
abbrev main_call0_v0 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_7 : Ref sig .tc := ⟨.hbm, 69, rfl⟩
abbrev main_v50 : Ref sig .tc := ⟨.hbm, 70, rfl⟩
abbrev main_v51 : Ref sig .tc := ⟨.hbm, 71, rfl⟩
abbrev main_c_8 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_9 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_call1_cst : Ref sig .tc := ⟨.hbm, 87, rfl⟩
abbrev main_call1_v0 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_c_10 : Ref sig .tc := ⟨.hbm, 93, rfl⟩
abbrev main_v69 : Ref sig .tc := ⟨.hbm, 94, rfl⟩
abbrev main_v70 : Ref sig .tc := ⟨.hbm, 95, rfl⟩
abbrev main_c_11 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_12 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_call2_cst : Ref sig .tc := ⟨.hbm, 111, rfl⟩
abbrev main_call2_v0 : Ref sig .tc := ⟨.hbm, 112, rfl⟩
abbrev main_call2_cst_0 : Ref sig .tc := ⟨.hbm, 113, rfl⟩
abbrev main_call2_v1 : Ref sig .tc := ⟨.hbm, 114, rfl⟩
abbrev main_call2_v2 : Ref sig .tc := ⟨.hbm, 115, rfl⟩
abbrev main_call2_v3 : Ref sig .tc := ⟨.hbm, 116, rfl⟩
abbrev main_call2_v4 : Ref sig .tc := ⟨.hbm, 117, rfl⟩
abbrev main_call2_v5 : Ref sig .tc := ⟨.hbm, 118, rfl⟩
abbrev main_call2_v6 : Ref sig .tc := ⟨.hbm, 119, rfl⟩
abbrev main_call2_cst_1 : Ref sig .tc := ⟨.hbm, 120, rfl⟩
abbrev main_call2_v7 : Ref sig .tc := ⟨.hbm, 121, rfl⟩
abbrev main_call2_v8 : Ref sig .tc := ⟨.hbm, 122, rfl⟩
abbrev main_call2_v9 : Ref sig .tc := ⟨.hbm, 123, rfl⟩
abbrev main_call2_v10 : Ref sig .tc := ⟨.hbm, 124, rfl⟩
abbrev main_v84 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x500 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x40 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bitsLt_bf16_f32 : FTy.bits .bf16 < FTy.bits .f32
  inb_S10000x500_S10000x500_0_0 : ∀ a, (![0, 0] : Fin 2 → Nat) a + S10000x500.size a ≤ S10000x500.size a
  h_S10000x500 : 0 < S10000x500.numel
  shapeCasts_S10000x500_S10000x500 : S10000x500.ShapeCasts S10000x500
  inb_S500x128_S500x128_0_0 : ∀ a, (![0, 0] : Fin 2 → Nat) a + S500x128.size a ≤ S500x128.size a
  h_S500x128 : 0 < S500x128.numel
  shapeCasts_S500x128_S500x128 : S500x128.ShapeCasts S500x128
  inb_S10000x128_S10000x128_0_0 : ∀ a, (![0, 0] : Fin 2 → Nat) a + S10000x128.size a ≤ S10000x128.size a
  h_S10000x128 : 0 < S10000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x40_S64x40_0_0 : ∀ a, (![0, 0] : Fin 2 → Nat) a + S64x40.size a ≤ S64x40.size a
  h_S64x40 : 0 < S64x40.numel
  shapeCasts_S64x40_S64x40 : S64x40.ShapeCasts S64x40
  inb_S10000x40_S10000x40_0_0 : ∀ a, (![0, 0] : Fin 2 → Nat) a + S10000x40.size a ≤ S10000x40.size a
  h_S10000x40 : 0 < S10000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x500_S500x128_S10000x128_1_0_0_1_n_n_wf : DotDims.WF S10000x500 S500x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x40_S10000x40_1_0_0_1_n_n_wf : DotDims.WF S10000x64 S64x40 S10000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x500.size a ≤ S100000x500.size a
  hwx0_0 : ∀ i : grid0.Coords, EltTy.bits .bf16 = 32 ∨ (Rect.block (s := S100000x500) S10000x500.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x128.size a ≤ S500x128.size a
  hwx0_1 : ∀ i : grid0.Coords, EltTy.bits .bf16 = 32 ∨ (Rect.block (s := S500x128) S500x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .bf16 = 32 ∨ (Rect.block (s := S100000x128) S10000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .bf16 = 32 ∨ (Rect.block (s := S128x64) S128x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .bf16 = 32 ∨ (Rect.block (s := S100000x64) S10000x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x40.size a ≤ S64x40.size a
  hwx2_1 : ∀ i : grid2.Coords, EltTy.bits .bf16 = 32 ∨ (Rect.block (s := S64x40) S64x40.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x40.size a ≤ S100000x40.size a
  hwx2_2 : ∀ i : grid2.Coords, EltTy.bits .f32 = 32 ∨ (Rect.block (s := S100000x40) S10000x40.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x500_S500x128_S10000x128_1_0_0_1_n_n : DotDims S10000x500 S500x128 S10000x128 where
  lhsContracting := [1]
  rhsContracting := [0]
  lhsNonContracting := [0]
  rhsNonContracting := [1]
  lhsBatch := []
  rhsBatch := []
  wf := dot_S10000x500_S500x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_v28) S10000x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S500x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v66) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v67) S64x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v68) S10000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x500 : Shape := ⟨2, ![100000, 500]⟩
abbrev S2x1600000 : Shape := ⟨2, ![2, 1600000]⟩
abbrev S500x128 : Shape := ⟨2, ![500, 128]⟩
abbrev S128 : Shape := ⟨1, ![128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S100000x128 : Shape := ⟨2, ![100000, 128]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x40 : Shape := ⟨2, ![100000, 40]⟩
abbrev S1700000x40 : Shape := ⟨2, ![1700000, 40]⟩
abbrev S1x40 : Shape := ⟨2, ![1, 40]⟩
abbrev S100000x1 : Shape := ⟨2, ![100000, 1]⟩

abbrev nBuf : Space → Nat
  | .hbm => 180
  | .vmem => 0
  | .smem => 0
  | _ => 0

abbrev hbmTy0_0 (i : Nat) : BufTy := match i % 128 with
  | 0 => ⟨S100000x500, .f32⟩
  | 1 => ⟨S2x1600000, .i32⟩
  | 2 => ⟨S500x128, .f32⟩
  | 3 => ⟨S128, .f32⟩
  | 4 => ⟨S128x64, .f32⟩
  | 5 => ⟨S64, .f32⟩
  | 6 => ⟨S64x40, .f32⟩
  | 7 => ⟨S40, .f32⟩
  | 8 => ⟨S1x1600000, .i32⟩
  | 9 => ⟨S1600000, .i32⟩
  | 10 => ⟨S1x1600000, .i32⟩
  | 11 => ⟨S1600000, .i32⟩
  | 12 => ⟨S100000x128, .f32⟩
  | 13 => ⟨S100000, .i32⟩
  | 14 => ⟨S1700000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S100000, .f32⟩
  | 23 => ⟨S_, .i32⟩
  | 24 => ⟨S1700000, .i32⟩
  | 25 => ⟨S1700000, .i1⟩
  | 26 => ⟨S_, .i32⟩
  | 27 => ⟨S1700000, .i32⟩
  | 28 => ⟨S1700000, .i32⟩
  | 29 => ⟨S1700000, .i32⟩
  | 30 => ⟨S1700000x1, .i32⟩
  | 31 => ⟨S1700000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000x128, .f32⟩
  | 51 => ⟨S1700000x1, .f32⟩
  | 52 => ⟨S1700000x128, .f32⟩
  | 53 => ⟨S1700000x128, .f32⟩
  | 54 => ⟨S_, .f32⟩
  | 55 => ⟨S100000x128, .f32⟩
  | 56 => ⟨S1700000x1, .i32⟩
  | 57 => ⟨S100000x128, .f32⟩
  | 58 => ⟨S1x128, .f32⟩
  | 59 => ⟨S100000x128, .f32⟩
  | 60 => ⟨S100000x128, .f32⟩
  | 61 => ⟨S_, .f32⟩
  | 62 => ⟨S100000x128, .f32⟩
  | 63 => ⟨S100000x128, .f32⟩
  | 64 => ⟨S100000x64, .f32⟩
  | 65 => ⟨S100000, .i32⟩
  | 66 => ⟨S1700000, .i32⟩
  | 67 => ⟨S1700000, .i32⟩
  | 68 => ⟨S_, .f32⟩
  | 69 => ⟨S1700000, .f32⟩
  | 70 => ⟨S_, .f32⟩
  | 71 => ⟨S100000, .f32⟩
  | 72 => ⟨S1700000x1, .i32⟩
  | 73 => ⟨S100000, .f32⟩
  | 74 => ⟨S100000, .f32⟩
  | 75 => ⟨S_, .i32⟩
  | 76 => ⟨S1700000, .i32⟩
  | 77 => ⟨S1700000, .i1⟩
  | 78 => ⟨S_, .i32⟩
  | 79 => ⟨S1700000, .i32⟩
  | 80 => ⟨S1700000, .i32⟩
  | 81 => ⟨S1700000, .i32⟩
  | 82 => ⟨S1700000x1, .i32⟩
  | 83 => ⟨S1700000, .f32⟩
  | 84 => ⟨S_, .i32⟩
  | 85 => ⟨S1700000, .i32⟩
  | 86 => ⟨S1700000, .i1⟩
  | 87 => ⟨S_, .i32⟩
  | 88 => ⟨S1700000, .i32⟩
  | 89 => ⟨S1700000, .i32⟩
  | 90 => ⟨S1700000, .i32⟩
  | 91 => ⟨S1700000x1, .i32⟩
  | 92 => ⟨S1700000, .f32⟩
  | 93 => ⟨S1700000, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000x64, .f32⟩
  | 103 => ⟨S1700000x1, .f32⟩
  | 104 => ⟨S1700000x64, .f32⟩
  | 105 => ⟨S1700000x64, .f32⟩
  | 106 => ⟨S_, .f32⟩
  | 107 => ⟨S100000x64, .f32⟩
  | 108 => ⟨S1700000x1, .i32⟩
  | 109 => ⟨S100000x64, .f32⟩
  | 110 => ⟨S1x64, .f32⟩
  | 111 => ⟨S100000x64, .f32⟩
  | 112 => ⟨S100000x64, .f32⟩
  | 113 => ⟨S_, .f32⟩
  | 114 => ⟨S100000x64, .f32⟩
  | 115 => ⟨S100000x64, .f32⟩
  | 116 => ⟨S100000x40, .f32⟩
  | 117 => ⟨S100000, .i32⟩
  | 118 => ⟨S1700000, .i32⟩
  | 119 => ⟨S1700000, .i32⟩
  | 120 => ⟨S_, .f32⟩
  | 121 => ⟨S1700000, .f32⟩
  | 122 => ⟨S_, .f32⟩
  | 123 => ⟨S100000, .f32⟩
  | 124 => ⟨S1700000x1, .i32⟩
  | 125 => ⟨S100000, .f32⟩
  | 126 => ⟨S100000, .f32⟩
  | 127 => ⟨S_, .i32⟩
  | _ => ⟨S100000x500, .f32⟩

abbrev hbmTy0_1 (i : Nat) : BufTy := match i % 128 with
  | 0 => ⟨S1700000, .i32⟩
  | 1 => ⟨S1700000, .i1⟩
  | 2 => ⟨S_, .i32⟩
  | 3 => ⟨S1700000, .i32⟩
  | 4 => ⟨S1700000, .i32⟩
  | 5 => ⟨S1700000, .i32⟩
  | 6 => ⟨S1700000x1, .i32⟩
  | 7 => ⟨S1700000, .f32⟩
  | 8 => ⟨S_, .i32⟩
  | 9 => ⟨S1700000, .i32⟩
  | 10 => ⟨S1700000, .i1⟩
  | 11 => ⟨S_, .i32⟩
  | 12 => ⟨S1700000, .i32⟩
  | 13 => ⟨S1700000, .i32⟩
  | 14 => ⟨S1700000, .i32⟩
  | 15 => ⟨S1700000x1, .i32⟩
  | 16 => ⟨S1700000, .f32⟩
  | 17 => ⟨S1700000, .f32⟩
  | 18 => ⟨S_, .i32⟩
  | 19 => ⟨S1700000, .i32⟩
  | 20 => ⟨S1700000, .i1⟩
  | 21 => ⟨S_, .i32⟩
  | 22 => ⟨S1700000, .i32⟩
  | 23 => ⟨S1700000, .i32⟩
  | 24 => ⟨S1700000, .i32⟩
  | 25 => ⟨S1700000x1, .i32⟩
  | 26 => ⟨S1700000x40, .f32⟩
  | 27 => ⟨S1700000x1, .f32⟩
  | 28 => ⟨S1700000x40, .f32⟩
  | 29 => ⟨S1700000x40, .f32⟩
  | 30 => ⟨S_, .f32⟩
  | 31 => ⟨S100000x40, .f32⟩
  | 32 => ⟨S1700000x1, .i32⟩
  | 33 => ⟨S100000x40, .f32⟩
  | 34 => ⟨S1x40, .f32⟩
  | 35 => ⟨S100000x40, .f32⟩
  | 36 => ⟨S100000x40, .f32⟩
  | 37 => ⟨S_, .f32⟩
  | 38 => ⟨S100000, .f32⟩
  | 39 => ⟨S_, .f32⟩
  | 40 => ⟨S100000, .f32⟩
  | 41 => ⟨S100000, .f32⟩
  | 42 => ⟨S100000x1, .f32⟩
  | 43 => ⟨S100000x40, .f32⟩
  | 44 => ⟨S100000x40, .f32⟩
  | 45 => ⟨S100000x40, .f32⟩
  | 46 => ⟨S_, .f32⟩
  | 47 => ⟨S100000, .f32⟩
  | 48 => ⟨S100000x1, .f32⟩
  | 49 => ⟨S100000x1, .f32⟩
  | 50 => ⟨S100000x40, .f32⟩
  | 51 => ⟨S100000x40, .f32⟩
  | _ => ⟨S100000x500, .f32⟩

abbrev hbmTy (i : Nat) : BufTy := match i / 128 with
  | 0 => hbmTy0_0 i
  | 1 => hbmTy0_1 i
  | _ => ⟨S100000x500, .f32⟩

abbrev bufTy : (tb : Table) → Fin (tcTables nBuf tb) → BufTy
  | .hbm, ⟨i, _⟩ => hbmTy i
  | _, _ => ⟨S100000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_7 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_9 : Ref sig .tc := ⟨.hbm, 75, rfl⟩
abbrev main_v54 : Ref sig .tc := ⟨.hbm, 76, rfl⟩
abbrev main_v55 : Ref sig .tc := ⟨.hbm, 77, rfl⟩
abbrev main_c_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_11 : Ref sig .tc := ⟨.hbm, 84, rfl⟩
abbrev main_v61 : Ref sig .tc := ⟨.hbm, 85, rfl⟩
abbrev main_v62 : Ref sig .tc := ⟨.hbm, 86, rfl⟩
abbrev main_c_12 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_13 : Ref sig .tc := ⟨.hbm, 94, rfl⟩
abbrev main_v69 : Ref sig .tc := ⟨.hbm, 95, rfl⟩
abbrev main_v70 : Ref sig .tc := ⟨.hbm, 96, rfl⟩
abbrev main_c_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_15 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_call1_cst : Ref sig .tc := ⟨.hbm, 113, rfl⟩
abbrev main_call1_v0 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_16 : Ref sig .tc := ⟨.hbm, 120, rfl⟩
abbrev main_v90 : Ref sig .tc := ⟨.hbm, 121, rfl⟩
abbrev main_cst_17 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_c_18 : Ref sig .tc := ⟨.hbm, 127, rfl⟩
abbrev main_v95 : Ref sig .tc := ⟨.hbm, 128, rfl⟩
abbrev main_v96 : Ref sig .tc := ⟨.hbm, 129, rfl⟩
abbrev main_c_19 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_c_20 : Ref sig .tc := ⟨.hbm, 136, rfl⟩
abbrev main_v102 : Ref sig .tc := ⟨.hbm, 137, rfl⟩
abbrev main_v103 : Ref sig .tc := ⟨.hbm, 138, rfl⟩
abbrev main_c_21 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_c_22 : Ref sig .tc := ⟨.hbm, 146, rfl⟩
abbrev main_v110 : Ref sig .tc := ⟨.hbm, 147, rfl⟩
abbrev main_v111 : Ref sig .tc := ⟨.hbm, 148, rfl⟩
abbrev main_c_23 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_cst_24 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_call2_cst : Ref sig .tc := ⟨.hbm, 165, rfl⟩
abbrev main_call2_v0 : Ref sig .tc := ⟨.hbm, 166, rfl⟩
abbrev main_call2_cst_0 : Ref sig .tc := ⟨.hbm, 167, rfl⟩
abbrev main_call2_v1 : Ref sig .tc := ⟨.hbm, 168, rfl⟩
abbrev main_call2_v2 : Ref sig .tc := ⟨.hbm, 169, rfl⟩
abbrev main_call2_v3 : Ref sig .tc := ⟨.hbm, 170, rfl⟩
abbrev main_call2_v4 : Ref sig .tc := ⟨.hbm, 171, rfl⟩
abbrev main_call2_v5 : Ref sig .tc := ⟨.hbm, 172, rfl⟩
abbrev main_call2_v6 : Ref sig .tc := ⟨.hbm, 173, rfl⟩
abbrev main_call2_cst_1 : Ref sig .tc := ⟨.hbm, 174, rfl⟩
abbrev main_call2_v7 : Ref sig .tc := ⟨.hbm, 175, rfl⟩
abbrev main_call2_v8 : Ref sig .tc := ⟨.hbm, 176, rfl⟩
abbrev main_call2_v9 : Ref sig .tc := ⟨.hbm, 177, rfl⟩
abbrev main_call2_v10 : Ref sig .tc := ⟨.hbm, 178, rfl⟩
abbrev main_v126 : Ref sig .tc := ⟨.hbm, 179, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x500_S500x128_S100000x128_1_0_0_1_n_n_wf : DotDims.WF S100000x500 S500x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def dot_S100000x500_S500x128_S100000x128_1_0_0_1_n_n : DotDims S100000x500 S500x128 S100000x128 where
  lhsContracting := [1]
  rhsContracting := [0]
  lhsNonContracting := [0]
  rhsNonContracting := [1]
  lhsBatch := []
  rhsBatch := []
  wf := dot_S100000x500_S500x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.KernelRun.lean ====
/-
  The idealized kernel's run with EVERY buffer named.

  The program is twelve segments: stretches of host operations around three matrix-product regions.  The generated
  frame module folds the buffer contents through them (`W0` at launch … `W12` at the return) and proves the run, but
  states of the final memory only that the arguments are unchanged.  The same run, read at every unscoped buffer, says
  that the final memory IS the last fold `W12` — in particular at the result buffer.
-/
import proofs.«119956_j7559142441490_1_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in the final memory every unscoped
    buffer of every core holds the last boundary's contents `W12`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-- The result buffer and the eight arguments in the final memory: the result at the last fold, the arguments as
    launched. -/
theorem run_result : θ_run defs (onTc (τ := τ) (main (F := F))) ⟨m, fun _ => 0, ρ⟩ (fun r => ∀ c : Dev nD,
      r.2.mem ((c.tc : Thread nD τ).loc main_v84) = W12 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_uc main_v84 (by decide)),
     (h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c),
     (h c _ (mem_uc main_arg7 (by decide))).trans (W12_main_arg7 m ρ c)⟩)
    (run_all m ρ)

end Cert.KernelIdeal.WholeRun

end
-- ==== Proof.HostStages.lean ====
/-
  The host operations of the network, as pure functions of arrays.

  The network is three graph-convolution layers and a row-wise log-softmax.  From the edge list [2, 1600000] come the
  source and destination node of each of 1700000 edges (the given edges, then one self-loop per node); a node's degree
  is the number of edges that end in it; an edge's weight is the product of the inverse square roots of its two
  endpoints' degrees.  A layer takes the dense product `H` of the node features with a weight matrix, gathers row
  `src` of `H` for every edge, scales it by the edge's weight, sums the scaled rows into row `dst`, and adds a bias.
  Each function below is the composition of host operations that the printed program applies, in the program's own
  spelling, with the dense product left as a parameter: the product is the one thing the two programs compute
  differently.
-/
import proofs.«119956_j7559142441490_1_alg».proof.Proof.Gen.KernelIdeal

noncomputable section

namespace Cert.KernelIdeal.Stages

open Cert.KernelIdeal Cert.KernelIdeal.Gen Idealize.ShloMosaic

variable {F : FTy → Type} [FloatOps F]

/-- The contents of a buffer of shape `s` and element type `e`. -/
abbrev Arr (F : FTy → Type) (s : Shape) (e : EltTy) : Type := (⟨s, e⟩ : BufTy).Contents (Elt F)

/-- Row `r` of the edge list as a flat vector of 1600000 node numbers. -/
def flatRow (r : Fin 2 → Nat) (hs : S2x1600000.Slices r S1x1600000) (e : Arr F S2x1600000 .i32) : Arr F S1600000 .i32 :=
  shapeCast _ (extractStridedSlice S1x1600000 r e hs) shapeCasts_S1x1600000_S1600000

/-- The given edges' endpoints followed by the nodes 0 … 99999 (the self-loops). -/
def withLoops (v : Arr F S1600000 .i32) : Arr F S1700000 .i32 :=
  concatenate S1700000 0 [⟨S1600000, v⟩, ⟨S100000, iotaInDim S100000 32 0⟩] concatenates_S1600000_S100000_S1700000_d0

/-- Row `r` of the edge list as a flat vector, followed by the self-loops. -/
def endpoints (r : Fin 2 → Nat) (hs : S2x1600000.Slices r S1x1600000) (e : Arr F S2x1600000 .i32) : Arr F S1700000 .i32 :=
  withLoops (flatRow r hs e)

/-- The source node of every edge. -/
def srcIdx (e : Arr F S2x1600000 .i32) : Arr F S1700000 .i32 := endpoints ![0, 0] slices_S2x1600000_S1x1600000_0_0 e

/-- The destination node of every edge. -/
def dstIdx (e : Arr F S2x1600000 .i32) : Arr F S1700000 .i32 := endpoints ![1, 0] slices_S2x1600000_S1x1600000_1_0 e

/-- A vector of node numbers as a one-column index matrix. -/
def col (v : Arr F S1700000 .i32) : Arr F S1700000x1 .i32 :=
  broadcastInDim S1700000x1 ![0] bcast_S1700000_S1700000x1_0 v

/-- A vector of node numbers with negative entries wrapped by adding 100000 (Python's indexing from the end), as a
    one-column index matrix. -/
def wrap (v : Arr F S1700000 .i32) : Arr F S1700000x1 .i32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- The inverse square root of every node's degree: ones summed into zeros at the edges' destinations. -/
def invSqrtDeg (d : Arr F S1700000 .i32) : Arr F S100000 .f32 :=
  Host.rsqrt (Host.scatterAdd scatter_S100000_S1700000x1_S1700000_n_0_0_1
    (broadcastInDim S100000 ![] bcast_S_S100000 (constant S_ .f32 0x00000000#32))
    (col d)
    (broadcastInDim S1700000 ![] bcast_S_S1700000 (constant S_ .f32 0x3F800000#32)))

/-- Every edge's weight: the product of the two endpoints' inverse square-root degrees. -/
def edgeWeight (s d : Arr F S1700000 .i32) : Arr F S1700000 .f32 :=
  mulf (Host.gather gather_S100000_S1700000x1_S1700000_n_0_n_n_0_1_1 (invSqrtDeg d) (wrap s))
       (Host.gather gather_S100000_S1700000x1_S1700000_n_0_n_n_0_1_1 (invSqrtDeg d) (wrap d))

/-- The edge weights as one column. -/
def weightCol (s d : Arr F S1700000 .i32) : Arr F S1700000x1 .f32 :=
  broadcastInDim S1700000x1 ![0] bcast_S1700000_S1700000x1_0 (edgeWeight s d)

/-- One graph-convolution layer of width 128 after its dense product `H`: every edge (self-loops included) carries row
    `src` of `H`, scaled by the edge's weight, to row `dst`, where the contributions are summed into zeros; then the
    bias is added to every row. -/
def layer128 (H : Arr F S100000x128 .f32) (s d : Arr F S1700000 .i32) (n : Arr F S1700000x1 .f32) (b : Arr F S128 .f32) :
    Arr F S100000x128 .f32 :=
  addf (Host.scatterAdd scatter_S100000x128_S1700000x1_S1700000x128_1_0_0_1
          (broadcastInDim S100000x128 ![] bcast_S_S100000x128 (constant S_ .f32 0x00000000#32))
          (col d)
          (mulf (Host.gather gather_S100000x128_S1700000x1_S1700000x128_1_0_n_n_0_1_1128 H (wrap s))
                (broadcastInDim S1700000x128 ![0, 1] bcast_S1700000x1_S1700000x128_0_1 n)))
       (broadcastInDim S100000x128 ![0, 1] bcast_S1x128_S100000x128_0_1 (broadcastInDim S1x128 ![1] bcast_S128_S1x128_1 b))

/-- The rectifier on a [100000, 128] matrix: the entrywise maximum with zero. -/
def relu128 (X : Arr F S100000x128 .f32) : Arr F S100000x128 .f32 :=
  maximumf X (broadcastInDim S100000x128 ![] bcast_S_S100000x128 (constant S_ .f32 0x00000000#32))

/-- One graph-convolution layer of width 64 after its dense product `H`: every edge (self-loops included) carries row
    `src` of `H`, scaled by the edge's weight, to row `dst`, where the contributions are summed into zeros; then the
    bias is added to every row. -/
def layer64 (H : Arr F S100000x64 .f32) (s d : Arr F S1700000 .i32) (n : Arr F S1700000x1 .f32) (b : Arr F S64 .f32) :
    Arr F S100000x64 .f32 :=
  addf (Host.scatterAdd scatter_S100000x64_S1700000x1_S1700000x64_1_0_0_1
          (broadcastInDim S100000x64 ![] bcast_S_S100000x64 (constant S_ .f32 0x00000000#32))
          (col d)
          (mulf (Host.gather gather_S100000x64_S1700000x1_S1700000x64_1_0_n_n_0_1_164 H (wrap s))
                (broadcastInDim S1700000x64 ![0, 1] bcast_S1700000x1_S1700000x64_0_1 n)))
       (broadcastInDim S100000x64 ![0, 1] bcast_S1x64_S100000x64_0_1 (broadcastInDim S1x64 ![1] bcast_S64_S1x64_1 b))

/-- The rectifier on a [100000, 64] matrix: the entrywise maximum with zero. -/
def relu64 (X : Arr F S100000x64 .f32) : Arr F S100000x64 .f32 :=
  maximumf X (broadcastInDim S100000x64 ![] bcast_S_S100000x64 (constant S_ .f32 0x00000000#32))

/-- One graph-convolution layer of width 40 after its dense product `H`: every edge (self-loops included) carries row
    `src` of `H`, scaled by the edge's weight, to row `dst`, where the contributions are summed into zeros; then the
    bias is added to every row. -/
def layer40 (H : Arr F S100000x40 .f32) (s d : Arr F S1700000 .i32) (n : Arr F S1700000x1 .f32) (b : Arr F S40 .f32) :
    Arr F S100000x40 .f32 :=
  addf (Host.scatterAdd scatter_S100000x40_S1700000x1_S1700000x40_1_0_0_1
          (broadcastInDim S100000x40 ![] bcast_S_S100000x40 (constant S_ .f32 0x00000000#32))
          (col d)
          (mulf (Host.gather gather_S100000x40_S1700000x1_S1700000x40_1_0_n_n_0_1_140 H (wrap s))
                (broadcastInDim S1700000x40 ![0, 1] bcast_S1700000x1_S1700000x40_0_1 n)))
       (broadcastInDim S100000x40 ![0, 1] bcast_S1x40_S100000x40_0_1 (broadcastInDim S1x40 ![1] bcast_S40_S1x40_1 b))

/-- Every row's maximum (at least minus infinity), as a column repeated across the row. -/
def rowMax (X : Arr F S100000x40 .f32) : Arr F S100000x40 .f32 :=
  broadcastInDim S100000x40 ![0, 1] bcast_S100000x1_S100000x40_0_1
    (broadcastInDim S100000x1 ![0] bcast_S100000_S100000x1_0
      (maximumf (broadcastInDim S100000 ![] bcast_S_S100000 (constant S_ .f32 0xFF800000#32))
        (Host.reduce FloatOps.maximumf X (constant S_ .f32 0xFF800000#32) reducesTo_S100000x40_S100000_d1 h_S_)))

/-- Every row's log of the sum of exponentials, repeated across the row. -/
def rowLogSumExp (Y : Arr F S100000x40 .f32) : Arr F S100000x40 .f32 :=
  broadcastInDim S100000x40 ![0, 1] bcast_S100000x1_S100000x40_0_1
    (Host.log (broadcastInDim S100000x1 ![0] bcast_S100000_S100000x1_0
      (Host.reduceAdd (Host.exp Y) (constant S_ .f32 0x00000000#32) reducesTo_S100000x40_S100000_d1 h_S_)))

/-- The row-wise log-softmax: subtract the row's maximum, then the log of the row's sum of exponentials. -/
def logSoftmax (X : Arr F S100000x40 .f32) : Arr F S100000x40 .f32 :=
  subf (subf X (rowMax X)) (rowLogSumExp (subf X (rowMax X)))

end Cert.KernelIdeal.Stages

end
-- ==== Proof.KernelFold.lean ====
/-
  The idealized kernel's buffers, read through the fold of its host operations.

  The generated frame module names the buffer contents at the twelve segment boundaries `W0` … `W12`: a stretch of
  host operations takes `W` to the fold of its operations' results over `W`; a matrix-product region rewrites only its
  three arrays.  Here each buffer that a later segment reads is read at each boundary: the edge endpoints, the edge
  weights and the biases are written once (before the first region) and carried unchanged; the input of each region
  is the previous layer's output, rectified and converted; the result is the log-softmax of the last layer.  All of
  it for any float instance; the conversions stay as the operations they are.
-/
import proofs.«119956_j7559142441490_1_alg».proof.Proof.Gen.KernelIdeal.Frame
import proofs.«119956_j7559142441490_1_alg».proof.Proof.HostStages
import Idealize.ShloMosaic.Lib.StableHlo.Run

set_option maxRecDepth 16384

noncomputable section

namespace Cert.KernelIdeal.Fold

open Cert.KernelIdeal Cert.KernelIdeal.Gen Cert.KernelIdeal.Stages
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-! ## Before the first region -/

set_option maxHeartbeats 4000000 in
/-- The edges' sources are ready before the first region. -/
theorem W1_src : W1 m ρ c (Proc.devRef .tc main_v5) = srcIdx (m ((c : Thread nD τ).loc main_arg1)) := by
  dsimp only [W1, W0, hostOps0]
  after_results_simp <;> rfl

set_option maxHeartbeats 4000000 in
/-- The edges' destinations likewise. -/
theorem W1_dst : W1 m ρ c (Proc.devRef .tc main_v6) = dstIdx (m ((c : Thread nD τ).loc main_arg1)) := by
  dsimp only [W1, W0, hostOps0]
  after_results_simp <;> rfl

set_option maxHeartbeats 4000000 in
/-- The column of edge weights likewise. -/
theorem W1_wcol : W1 m ρ c (Proc.devRef .tc main_v27) = weightCol (srcIdx (m ((c : Thread nD τ).loc main_arg1))) (dstIdx (m ((c : Thread nD τ).loc main_arg1))) := by
  dsimp only [W1, W0, hostOps0]
  after_results_simp <;> rfl

set_option maxHeartbeats 4000000 in
/-- The first region's left operand: the node features, converted. -/
theorem W1_x : W1 m ρ c (Proc.devRef .tc main_v28) = truncf .bf16 (m ((c : Thread nD τ).loc main_arg0)) bitsLt_bf16_f32 := by
  dsimp only [W1, W0, hostOps0]
  after_results_simp <;> rfl

set_option maxHeartbeats 4000000 in
/-- Its right operand: the first weight matrix, converted. -/
theorem W1_w : W1 m ρ c (Proc.devRef .tc main_v29) = truncf .bf16 (m ((c : Thread nD τ).loc main_arg2)) bitsLt_bf16_f32 := by
  dsimp only [W1, W0, hostOps0]
  after_results_simp <;> rfl

set_option maxHeartbeats 4000000 in
/-- Argument 3 is as launched. -/
theorem W1_arg3 : W1 m ρ c (Proc.devRef .tc main_arg3) = m ((c : Thread nD τ).loc main_arg3) := by
  dsimp only [W1, W0, hostOps0]
  after_results_simp <;> rfl

set_option maxHeartbeats 4000000 in
/-- Argument 4 is as launched. -/
theorem W1_arg4 : W1 m ρ c (Proc.devRef .tc main_arg4) = m ((c : Thread nD τ).loc main_arg4) := by
  dsimp only [W1, W0, hostOps0]
  after_results_simp <;> rfl

set_option maxHeartbeats 4000000 in
/-- Argument 5 is as launched. -/
theorem W1_arg5 : W1 m ρ c (Proc.devRef .tc main_arg5) = m ((c : Thread nD τ).loc main_arg5) := by
  dsimp only [W1, W0, hostOps0]
  after_results_simp <;> rfl

set_option maxHeartbeats 4000000 in
/-- Argument 6 is as launched. -/
theorem W1_arg6 : W1 m ρ c (Proc.devRef .tc main_arg6) = m ((c : Thread nD τ).loc main_arg6) := by
  dsimp only [W1, W0, hostOps0]
  after_results_simp <;> rfl

set_option maxHeartbeats 4000000 in
/-- Argument 7 is as launched. -/
theorem W1_arg7 : W1 m ρ c (Proc.devRef .tc main_arg7) = m ((c : Thread nD τ).loc main_arg7) := by
  dsimp only [W1, W0, hostOps0]
  after_results_simp <;> rfl

/-! ## Across the first region: only its three arrays change -/

/-- The first region's output array is what its ten write-backs leave. -/
theorem W2_out : W2 m ρ c (Proc.devRef .tc main_v30) = (dat0 (V1 m ρ) c).arrAt 2 cfg0.N := W2_arr m ρ c 2
theorem W2_v5 : W2 m ρ c (Proc.devRef .tc main_v5) = W1 m ρ c (Proc.devRef .tc main_v5) := W2_of_ne m ρ c main_v5 (by decide)
theorem W2_v6 : W2 m ρ c (Proc.devRef .tc main_v6) = W1 m ρ c (Proc.devRef .tc main_v6) := W2_of_ne m ρ c main_v6 (by decide)
theorem W2_v27 : W2 m ρ c (Proc.devRef .tc main_v27) = W1 m ρ c (Proc.devRef .tc main_v27) := W2_of_ne m ρ c main_v27 (by decide)
theorem W2_arg3 : W2 m ρ c (Proc.devRef .tc main_arg3) = W1 m ρ c (Proc.devRef .tc main_arg3) := W2_of_ne m ρ c main_arg3 (by decide)
theorem W2_arg4 : W2 m ρ c (Proc.devRef .tc main_arg4) = W1 m ρ c (Proc.devRef .tc main_arg4) := W2_of_ne m ρ c main_arg4 (by decide)
theorem W2_arg5 : W2 m ρ c (Proc.devRef .tc main_arg5) = W1 m ρ c (Proc.devRef .tc main_arg5) := W2_of_ne m ρ c main_arg5 (by decide)
theorem W2_arg6 : W2 m ρ c (Proc.devRef .tc main_arg6) = W1 m ρ c (Proc.devRef .tc main_arg6) := W2_of_ne m ρ c main_arg6 (by decide)
theorem W2_arg7 : W2 m ρ c (Proc.devRef .tc main_arg7) = W1 m ρ c (Proc.devRef .tc main_arg7) := W2_of_ne m ρ c main_arg7 (by decide)

/-! ## Between the first and the second region -/

set_option maxHeartbeats 4000000 in
/-- The second region's left operand: the first layer of the first product, rectified and converted. -/
theorem W5_x : W5 m ρ c (Proc.devRef .tc main_v47)
    = truncf .bf16 (relu128 (layer128 (W2 m ρ c (Proc.devRef .tc main_v30)) (W2 m ρ c (Proc.devRef .tc main_v5))
        (W2 m ρ c (Proc.devRef .tc main_v6)) (W2 m ρ c (Proc.devRef .tc main_v27)) (W2 m ρ c (Proc.devRef .tc main_arg3)))) bitsLt_bf16_f32 := by
  dsimp only [W5, W4, W3, hostOps1, hostOps1_1, hostOps1_2]
  after_results_simp <;> rfl

set_option maxHeartbeats 4000000 in
/-- Its right operand: the second weight matrix, converted. -/
theorem W5_w : W5 m ρ c (Proc.devRef .tc main_v48) = truncf .bf16 (W2 m ρ c (Proc.devRef .tc main_arg4)) bitsLt_bf16_f32 := by
  dsimp only [W5, W4, W3, hostOps1, hostOps1_1, hostOps1_2]
  after_results_simp <;> rfl
set_option maxHeartbeats 4000000 in
theorem W5_v5 : W5 m ρ c (Proc.devRef .tc main_v5) = W2 m ρ c (Proc.devRef .tc main_v5) := by
  dsimp only [W5, W4, W3, hostOps1, hostOps1_1, hostOps1_2]
  after_results_simp <;> rfl
set_option maxHeartbeats 4000000 in
theorem W5_v6 : W5 m ρ c (Proc.devRef .tc main_v6) = W2 m ρ c (Proc.devRef .tc main_v6) := by
  dsimp only [W5, W4, W3, hostOps1, hostOps1_1, hostOps1_2]
  after_results_simp <;> rfl
set_option maxHeartbeats 4000000 in
theorem W5_v27 : W5 m ρ c (Proc.devRef .tc main_v27) = W2 m ρ c (Proc.devRef .tc main_v27) := by
  dsimp only [W5, W4, W3, hostOps1, hostOps1_1, hostOps1_2]
  after_results_simp <;> rfl
set_option maxHeartbeats 4000000 in
theorem W5_arg5 : W5 m ρ c (Proc.devRef .tc main_arg5) = W2 m ρ c (Proc.devRef .tc main_arg5) := by
  dsimp only [W5, W4, W3, hostOps1, hostOps1_1, hostOps1_2]
  after_results_simp <;> rfl
set_option maxHeartbeats 4000000 in
theorem W5_arg6 : W5 m ρ c (Proc.devRef .tc main_arg6) = W2 m ρ c (Proc.devRef .tc main_arg6) := by
  dsimp only [W5, W4, W3, hostOps1, hostOps1_1, hostOps1_2]
  after_results_simp <;> rfl
set_option maxHeartbeats 4000000 in
theorem W5_arg7 : W5 m ρ c (Proc.devRef .tc main_arg7) = W2 m ρ c (Proc.devRef .tc main_arg7) := by
  dsimp only [W5, W4, W3, hostOps1, hostOps1_1, hostOps1_2]
  after_results_simp <;> rfl

/-! ## Across the second region -/

/-- The second region's output array is what its ten write-backs leave. -/
theorem W6_out : W6 m ρ c (Proc.devRef .tc main_v49) = (dat1 (V5 m ρ) c).arrAt 2 cfg1.N := W6_arr m ρ c 2
theorem W6_v5 : W6 m ρ c (Proc.devRef .tc main_v5) = W5 m ρ c (Proc.devRef .tc main_v5) := W6_of_ne m ρ c main_v5 (by decide)
theorem W6_v6 : W6 m ρ c (Proc.devRef .tc main_v6) = W5 m ρ c (Proc.devRef .tc main_v6) := W6_of_ne m ρ c main_v6 (by decide)
theorem W6_v27 : W6 m ρ c (Proc.devRef .tc main_v27) = W5 m ρ c (Proc.devRef .tc main_v27) := W6_of_ne m ρ c main_v27 (by decide)
theorem W6_arg5 : W6 m ρ c (Proc.devRef .tc main_arg5) = W5 m ρ c (Proc.devRef .tc main_arg5) := W6_of_ne m ρ c main_arg5 (by decide)
theorem W6_arg6 : W6 m ρ c (Proc.devRef .tc main_arg6) = W5 m ρ c (Proc.devRef .tc main_arg6) := W6_of_ne m ρ c main_arg6 (by decide)
theorem W6_arg7 : W6 m ρ c (Proc.devRef .tc main_arg7) = W5 m ρ c (Proc.devRef .tc main_arg7) := W6_of_ne m ρ c main_arg7 (by decide)

/-! ## Between the second and the third region -/

set_option maxHeartbeats 4000000 in
/-- The third region's left operand: the second layer of the second product, rectified and converted. -/
theorem W9_x : W9 m ρ c (Proc.devRef .tc main_v66)
    = truncf .bf16 (relu64 (layer64 (W6 m ρ c (Proc.devRef .tc main_v49)) (W6 m ρ c (Proc.devRef .tc main_v5))
        (W6 m ρ c (Proc.devRef .tc main_v6)) (W6 m ρ c (Proc.devRef .tc main_v27)) (W6 m ρ c (Proc.devRef .tc main_arg5)))) bitsLt_bf16_f32 := by
  dsimp only [W9, W8, W7, hostOps2, hostOps2_1, hostOps2_2]
  after_results_simp <;> rfl

set_option maxHeartbeats 4000000 in
/-- Its right operand: the third weight matrix, converted. -/
theorem W9_w : W9 m ρ c (Proc.devRef .tc main_v67) = truncf .bf16 (W6 m ρ c (Proc.devRef .tc main_arg6)) bitsLt_bf16_f32 := by
  dsimp only [W9, W8, W7, hostOps2, hostOps2_1, hostOps2_2]
  after_results_simp <;> rfl
set_option maxHeartbeats 4000000 in
theorem W9_v5 : W9 m ρ c (Proc.devRef .tc main_v5) = W6 m ρ c (Proc.devRef .tc main_v5) := by
  dsimp only [W9, W8, W7, hostOps2, hostOps2_1, hostOps2_2]
  after_results_simp <;> rfl
set_option maxHeartbeats 4000000 in
theorem W9_v6 : W9 m ρ c (Proc.devRef .tc main_v6) = W6 m ρ c (Proc.devRef .tc main_v6) := by
  dsimp only [W9, W8, W7, hostOps2, hostOps2_1, hostOps2_2]
  after_results_simp <;> rfl
set_option maxHeartbeats 4000000 in
theorem W9_v27 : W9 m ρ c (Proc.devRef .tc main_v27) = W6 m ρ c (Proc.devRef .tc main_v27) := by
  dsimp only [W9, W8, W7, hostOps2, hostOps2_1, hostOps2_2]
  after_results_simp <;> rfl
set_option maxHeartbeats 4000000 in
theorem W9_arg7 : W9 m ρ c (Proc.devRef .tc main_arg7) = W6 m ρ c (Proc.devRef .tc main_arg7) := by
  dsimp only [W9, W8, W7, hostOps2, hostOps2_1, hostOps2_2]
  after_results_simp <;> rfl

/-! ## Across the third region -/

/-- The third region's output array is what its ten write-backs leave. -/
theorem W10_out : W10 m ρ c (Proc.devRef .tc main_v68) = (dat2 (V9 m ρ) c).arrAt 2 cfg2.N := W10_arr m ρ c 2
theorem W10_v5 : W10 m ρ c (Proc.devRef .tc main_v5) = W9 m ρ c (Proc.devRef .tc main_v5) := W10_of_ne m ρ c main_v5 (by decide)
theorem W10_v6 : W10 m ρ c (Proc.devRef .tc main_v6) = W9 m ρ c (Proc.devRef .tc main_v6) := W10_of_ne m ρ c main_v6 (by decide)
theorem W10_v27 : W10 m ρ c (Proc.devRef .tc main_v27) = W9 m ρ c (Proc.devRef .tc main_v27) := W10_of_ne m ρ c main_v27 (by decide)
theorem W10_arg7 : W10 m ρ c (Proc.devRef .tc main_arg7) = W9 m ρ c (Proc.devRef .tc main_arg7) := W10_of_ne m ρ c main_arg7 (by decide)

/-! ## After the third region -/

set_option maxHeartbeats 4000000 in
/-- The third layer: the third product's rows gathered, weighted, summed and biased. -/
theorem W11_layer : W11 m ρ c (Proc.devRef .tc main_v83)
    = layer40 (W10 m ρ c (Proc.devRef .tc main_v68)) (W10 m ρ c (Proc.devRef .tc main_v5))
        (W10 m ρ c (Proc.devRef .tc main_v6)) (W10 m ρ c (Proc.devRef .tc main_v27)) (W10 m ρ c (Proc.devRef .tc main_arg7)) := by
  dsimp only [W11, hostOps3]
  after_results_simp <;> rfl

-- the row maximum is a fold over four million elements: it is compared by its arguments, never unfolded
attribute [local irreducible] Idealize.ShloMosaic.Host.reduce

set_option maxHeartbeats 4000000 in
/-- The fifteen operations of the row-wise log-softmax, whatever their payloads: the builders that carry a buffer's
    type beside it make the same operations as the plain builders, the types being the buffers' own. -/
theorem softmax_builders
    (p0 : (⟨S_, .f32⟩ : BufTy).Contents (Elt F))
    (p1 : (⟨S100000x40, .f32⟩ : BufTy).Contents (Elt F) → (⟨S_, .f32⟩ : BufTy).Contents (Elt F) → (⟨S100000, .f32⟩ : BufTy).Contents (Elt F))
    (p2 : (⟨S_, .f32⟩ : BufTy).Contents (Elt F))
    (p3 : (⟨S_, .f32⟩ : BufTy).Contents (Elt F) → (⟨S100000, .f32⟩ : BufTy).Contents (Elt F))
    (p4 : (⟨S100000, .f32⟩ : BufTy).Contents (Elt F) → (⟨S100000, .f32⟩ : BufTy).Contents (Elt F) → (⟨S100000, .f32⟩ : BufTy).Contents (Elt F))
    (p5 : (⟨S100000, .f32⟩ : BufTy).Contents (Elt F) → (⟨S100000x1, .f32⟩ : BufTy).Contents (Elt F))
    (p6 : (⟨S100000x1, .f32⟩ : BufTy).Contents (Elt F) → (⟨S100000x40, .f32⟩ : BufTy).Contents (Elt F))
    (p7 : (⟨S100000x40, .f32⟩ : BufTy).Contents (Elt F) → (⟨S100000x40, .f32⟩ : BufTy).Contents (Elt F) → (⟨S100000x40, .f32⟩ : BufTy).Contents (Elt F))
    (p8 : (⟨S100000x40, .f32⟩ : BufTy).Contents (Elt F) → (⟨S100000x40, .f32⟩ : BufTy).Contents (Elt F))
    (p9 : (⟨S_, .f32⟩ : BufTy).Contents (Elt F))
    (p10 : (⟨S100000x40, .f32⟩ : BufTy).Contents (Elt F) → (⟨S_, .f32⟩ : BufTy).Contents (Elt F) → (⟨S100000, .f32⟩ : BufTy).Contents (Elt F))
    (p11 : (⟨S100000, .f32⟩ : BufTy).Contents (Elt F) → (⟨S100000x1, .f32⟩ : BufTy).Contents (Elt F))
    (p12 : (⟨S100000x1, .f32⟩ : BufTy).Contents (Elt F) → (⟨S100000x1, .f32⟩ : BufTy).Contents (Elt F))
    (p13 : (⟨S100000x1, .f32⟩ : BufTy).Contents (Elt F) → (⟨S100000x40, .f32⟩ : BufTy).Contents (Elt F))
    (p14 : (⟨S100000x40, .f32⟩ : BufTy).Contents (Elt F) → (⟨S100000x40, .f32⟩ : BufTy).Contents (Elt F) → (⟨S100000x40, .f32⟩ : BufTy).Contents (Elt F)) :
    ([ StableHlo.TRef.nullary (.of main_call2_cst : StableHlo.TRef sig ⟨S_, .f32⟩) p0,
      StableHlo.TRef.binary (.of main_v83 : StableHlo.TRef sig ⟨S100000x40, .f32⟩) (.of main_call2_cst : StableHlo.TRef sig ⟨S_, .f32⟩) (.of main_call2_v0 : StableHlo.TRef sig ⟨S100000, .f32⟩) p1,
      StableHlo.TRef.nullary (.of main_call2_cst_0 : StableHlo.TRef sig ⟨S_, .f32⟩) p2,
      StableHlo.TRef.unary (.of main_call2_cst_0 : StableHlo.TRef sig ⟨S_, .f32⟩) (.of main_call2_v1 : StableHlo.TRef sig ⟨S100000, .f32⟩) p3,
      StableHlo.TRef.binary (.of main_call2_v1 : StableHlo.TRef sig ⟨S100000, .f32⟩) (.of main_call2_v0 : StableHlo.TRef sig ⟨S100000, .f32⟩) (.of main_call2_v2 : StableHlo.TRef sig ⟨S100000, .f32⟩) p4,
      StableHlo.TRef.unary (.of main_call2_v2 : StableHlo.TRef sig ⟨S100000, .f32⟩) (.of main_call2_v3 : StableHlo.TRef sig ⟨S100000x1, .f32⟩) p5,
      StableHlo.TRef.unary (.of main_call2_v3 : StableHlo.TRef sig ⟨S100000x1, .f32⟩) (.of main_call2_v4 : StableHlo.TRef sig ⟨S100000x40, .f32⟩) p6,
      StableHlo.TRef.binary (.of main_v83 : StableHlo.TRef sig ⟨S100000x40, .f32⟩) (.of main_call2_v4 : StableHlo.TRef sig ⟨S100000x40, .f32⟩) (.of main_call2_v5 : StableHlo.TRef sig ⟨S100000x40, .f32⟩) p7,
      StableHlo.TRef.unary (.of main_call2_v5 : StableHlo.TRef sig ⟨S100000x40, .f32⟩) (.of main_call2_v6 : StableHlo.TRef sig ⟨S100000x40, .f32⟩) p8,
      StableHlo.TRef.nullary (.of main_call2_cst_1 : StableHlo.TRef sig ⟨S_, .f32⟩) p9,
      StableHlo.TRef.binary (.of main_call2_v6 : StableHlo.TRef sig ⟨S100000x40, .f32⟩) (.of main_call2_cst_1 : StableHlo.TRef sig ⟨S_, .f32⟩) (.of main_call2_v7 : StableHlo.TRef sig ⟨S100000, .f32⟩) p10,
      StableHlo.TRef.unary (.of main_call2_v7 : StableHlo.TRef sig ⟨S100000, .f32⟩) (.of main_call2_v8 : StableHlo.TRef sig ⟨S100000x1, .f32⟩) p11,
      StableHlo.TRef.unary (.of main_call2_v8 : StableHlo.TRef sig ⟨S100000x1, .f32⟩) (.of main_call2_v9 : StableHlo.TRef sig ⟨S100000x1, .f32⟩) p12,
      StableHlo.TRef.unary (.of main_call2_v9 : StableHlo.TRef sig ⟨S100000x1, .f32⟩) (.of main_call2_v10 : StableHlo.TRef sig ⟨S100000x40, .f32⟩) p13,
      StableHlo.TRef.binary (.of main_call2_v5 : StableHlo.TRef sig ⟨S100000x40, .f32⟩) (.of main_call2_v10 : StableHlo.TRef sig ⟨S100000x40, .f32⟩) (.of main_v84 : StableHlo.TRef sig ⟨S100000x40, .f32⟩) p14 ] : List (HloOp τ sig (Elt F)))
    = [ StableHlo.nullary main_call2_cst p0,
      StableHlo.binary main_v83 main_call2_cst main_call2_v0 p1,
      StableHlo.nullary main_call2_cst_0 p2,
      StableHlo.unary main_call2_cst_0 main_call2_v1 p3,
      StableHlo.binary main_call2_v1 main_call2_v0 main_call2_v2 p4,
      StableHlo.unary main_call2_v2 main_call2_v3 p5,
      StableHlo.unary main_call2_v3 main_call2_v4 p6,
      StableHlo.binary main_v83 main_call2_v4 main_call2_v5 p7,
      StableHlo.unary main_call2_v5 main_call2_v6 p8,
      StableHlo.nullary main_call2_cst_1 p9,
      StableHlo.binary main_call2_v6 main_call2_cst_1 main_call2_v7 p10,
      StableHlo.unary main_call2_v7 main_call2_v8 p11,
      StableHlo.unary main_call2_v8 main_call2_v9 p12,
      StableHlo.unary main_call2_v9 main_call2_v10 p13,
      StableHlo.binary main_call2_v5 main_call2_v10 main_v84 p14 ] := rfl

/-- The log-softmax's operations, plainly built. -/
abbrev softmaxOps : List (HloOp τ sig (Elt F)) :=
  [ StableHlo.nullary main_call2_cst (constant S_ .f32 0xFF800000#32 : (⟨S_, .f32⟩ : BufTy).Contents (Elt F)),
    StableHlo.binary main_v83 main_call2_cst main_call2_v0 (fun x v => Host.reduce FloatOps.maximumf x v reducesTo_S100000x40_S100000_d1 h_S_ : (⟨S100000x40, .f32⟩ : BufTy).Contents (Elt F) → (⟨S_, .f32⟩ : BufTy).Contents (Elt F) → (⟨S100000, .f32⟩ : BufTy).Contents (Elt F)),
    StableHlo.nullary main_call2_cst_0 (constant S_ .f32 0xFF800000#32 : (⟨S_, .f32⟩ : BufTy).Contents (Elt F)),
    StableHlo.unary main_call2_cst_0 main_call2_v1 (broadcastInDim S100000 ![] bcast_S_S100000 : (⟨S_, .f32⟩ : BufTy).Contents (Elt F) → (⟨S100000, .f32⟩ : BufTy).Contents (Elt F)),
    StableHlo.binary main_call2_v1 main_call2_v0 main_call2_v2 (maximumf : (⟨S100000, .f32⟩ : BufTy).Contents (Elt F) → (⟨S100000, .f32⟩ : BufTy).Contents (Elt F) → (⟨S100000, .f32⟩ : BufTy).Contents (Elt F)),
    StableHlo.unary main_call2_v2 main_call2_v3 (broadcastInDim S100000x1 ![0] bcast_S100000_S100000x1_0 : (⟨S100000, .f32⟩ : BufTy).Contents (Elt F) → (⟨S100000x1, .f32⟩ : BufTy).Contents (Elt F)),
    StableHlo.unary main_call2_v3 main_call2_v4 (broadcastInDim S100000x40 ![0, 1] bcast_S100000x1_S100000x40_0_1 : (⟨S100000x1, .f32⟩ : BufTy).Contents (Elt F) → (⟨S100000x40, .f32⟩ : BufTy).Contents (Elt F)),
    StableHlo.binary main_v83 main_call2_v4 main_call2_v5 (subf : (⟨S100000x40, .f32⟩ : BufTy).Contents (Elt F) → (⟨S100000x40, .f32⟩ : BufTy).Contents (Elt F) → (⟨S100000x40, .f32⟩ : BufTy).Contents (Elt F)),
    StableHlo.unary main_call2_v5 main_call2_v6 (Host.exp : (⟨S100000x40, .f32⟩ : BufTy).Contents (Elt F) → (⟨S100000x40, .f32⟩ : BufTy).Contents (Elt F)),
    StableHlo.nullary main_call2_cst_1 (constant S_ .f32 0x00000000#32 : (⟨S_, .f32⟩ : BufTy).Contents (Elt F)),
    StableHlo.binary main_call2_v6 main_call2_cst_1 main_call2_v7 (fun x v => Host.reduceAdd x v reducesTo_S100000x40_S100000_d1 h_S_ : (⟨S100000x40, .f32⟩ : BufTy).Contents (Elt F) → (⟨S_, .f32⟩ : BufTy).Contents (Elt F) → (⟨S100000, .f32⟩ : BufTy).Contents (Elt F)),
    StableHlo.unary main_call2_v7 main_call2_v8 (broadcastInDim S100000x1 ![0] bcast_S100000_S100000x1_0 : (⟨S100000, .f32⟩ : BufTy).Contents (Elt F) → (⟨S100000x1, .f32⟩ : BufTy).Contents (Elt F)),
    StableHlo.unary main_call2_v8 main_call2_v9 (Host.log : (⟨S100000x1, .f32⟩ : BufTy).Contents (Elt F) → (⟨S100000x1, .f32⟩ : BufTy).Contents (Elt F)),
    StableHlo.unary main_call2_v9 main_call2_v10 (broadcastInDim S100000x40 ![0, 1] bcast_S100000x1_S100000x40_0_1 : (⟨S100000x1, .f32⟩ : BufTy).Contents (Elt F) → (⟨S100000x40, .f32⟩ : BufTy).Contents (Elt F)),
    StableHlo.binary main_call2_v5 main_call2_v10 main_v84 (subf : (⟨S100000x40, .f32⟩ : BufTy).Contents (Elt F) → (⟨S100000x40, .f32⟩ : BufTy).Contents (Elt F) → (⟨S100000x40, .f32⟩ : BufTy).Contents (Elt F)) ]

theorem softmaxOps_eq : (hostOps3_1 : List (HloOp τ sig (Elt F))) = softmaxOps :=
  softmax_builders
    (constant S_ .f32 0xFF800000#32)
    (fun x v => Host.reduce FloatOps.maximumf x v reducesTo_S100000x40_S100000_d1 h_S_)
    (constant S_ .f32 0xFF800000#32)
    (broadcastInDim S100000 ![] bcast_S_S100000)
    (maximumf)
    (broadcastInDim S100000x1 ![0] bcast_S100000_S100000x1_0)
    (broadcastInDim S100000x40 ![0, 1] bcast_S100000x1_S100000x40_0_1)
    (subf)
    (Host.exp)
    (constant S_ .f32 0x00000000#32)
    (fun x v => Host.reduceAdd x v reducesTo_S100000x40_S100000_d1 h_S_)
    (broadcastInDim S100000x1 ![0] bcast_S100000_S100000x1_0)
    (Host.log)
    (broadcastInDim S100000x40 ![0, 1] bcast_S100000x1_S100000x40_0_1)
    (subf)

set_option maxHeartbeats 4000000 in
/-- The log-softmax's fifteen operations take a valuation's third-layer buffer to its row-wise log-softmax. -/
theorem softmax_fold (Wp : Valuation τ sig (Elt F)) :
    StableHlo.after hostOps3_1 Wp (Proc.devRef .tc main_v84) = logSoftmax (Wp (Proc.devRef .tc main_v83)) := by
  rw [softmaxOps_eq]
  dsimp only [softmaxOps]
  after_results_simp <;> rfl

/-- The result: the row-wise log-softmax of the third layer. -/
theorem W12_softmax : W12 m ρ c (Proc.devRef .tc main_v84) = logSoftmax (W11 m ρ c (Proc.devRef .tc main_v83)) :=
  softmax_fold (W11 m ρ c)

/-- The result: the row-wise log-softmax of the third layer of the third product. -/
theorem W12_out : W12 m ρ c (Proc.devRef .tc main_v84)
    = logSoftmax (layer40 (W10 m ρ c (Proc.devRef .tc main_v68)) (W10 m ρ c (Proc.devRef .tc main_v5))
        (W10 m ρ c (Proc.devRef .tc main_v6)) (W10 m ρ c (Proc.devRef .tc main_v27)) (W10 m ρ c (Proc.devRef .tc main_arg7))) :=
  (W12_softmax m ρ c).trans (congrArg logSoftmax (W11_layer m ρ c))

/-! ## The carried buffers at every boundary -/
theorem src2 : W2 m ρ c (Proc.devRef .tc main_v5) = srcIdx (m ((c : Thread nD τ).loc main_arg1)) := (W2_v5 m ρ c).trans (W1_src m ρ c)
theorem src5 : W5 m ρ c (Proc.devRef .tc main_v5) = srcIdx (m ((c : Thread nD τ).loc main_arg1)) := (W5_v5 m ρ c).trans (src2 m ρ c)
theorem src6 : W6 m ρ c (Proc.devRef .tc main_v5) = srcIdx (m ((c : Thread nD τ).loc main_arg1)) := (W6_v5 m ρ c).trans (src5 m ρ c)
theorem src9 : W9 m ρ c (Proc.devRef .tc main_v5) = srcIdx (m ((c : Thread nD τ).loc main_arg1)) := (W9_v5 m ρ c).trans (src6 m ρ c)
theorem src10 : W10 m ρ c (Proc.devRef .tc main_v5) = srcIdx (m ((c : Thread nD τ).loc main_arg1)) := (W10_v5 m ρ c).trans (src9 m ρ c)
theorem dst2 : W2 m ρ c (Proc.devRef .tc main_v6) = dstIdx (m ((c : Thread nD τ).loc main_arg1)) := (W2_v6 m ρ c).trans (W1_dst m ρ c)
theorem dst5 : W5 m ρ c (Proc.devRef .tc main_v6) = dstIdx (m ((c : Thread nD τ).loc main_arg1)) := (W5_v6 m ρ c).trans (dst2 m ρ c)
theorem dst6 : W6 m ρ c (Proc.devRef .tc main_v6) = dstIdx (m ((c : Thread nD τ).loc main_arg1)) := (W6_v6 m ρ c).trans (dst5 m ρ c)
theorem dst9 : W9 m ρ c (Proc.devRef .tc main_v6) = dstIdx (m ((c : Thread nD τ).loc main_arg1)) := (W9_v6 m ρ c).trans (dst6 m ρ c)
theorem dst10 : W10 m ρ c (Proc.devRef .tc main_v6) = dstIdx (m ((c : Thread nD τ).loc main_arg1)) := (W10_v6 m ρ c).trans (dst9 m ρ c)
theorem wcol2 : W2 m ρ c (Proc.devRef .tc main_v27) = weightCol (srcIdx (m ((c : Thread nD τ).loc main_arg1))) (dstIdx (m ((c : Thread nD τ).loc main_arg1))) := (W2_v27 m ρ c).trans (W1_wcol m ρ c)
theorem wcol5 : W5 m ρ c (Proc.devRef .tc main_v27) = weightCol (srcIdx (m ((c : Thread nD τ).loc main_arg1))) (dstIdx (m ((c : Thread nD τ).loc main_arg1))) := (W5_v27 m ρ c).trans (wcol2 m ρ c)
theorem wcol6 : W6 m ρ c (Proc.devRef .tc main_v27) = weightCol (srcIdx (m ((c : Thread nD τ).loc main_arg1))) (dstIdx (m ((c : Thread nD τ).loc main_arg1))) := (W6_v27 m ρ c).trans (wcol5 m ρ c)
theorem wcol9 : W9 m ρ c (Proc.devRef .tc main_v27) = weightCol (srcIdx (m ((c : Thread nD τ).loc main_arg1))) (dstIdx (m ((c : Thread nD τ).loc main_arg1))) := (W9_v27 m ρ c).trans (wcol6 m ρ c)
theorem wcol10 : W10 m ρ c (Proc.devRef .tc main_v27) = weightCol (srcIdx (m ((c : Thread nD τ).loc main_arg1))) (dstIdx (m ((c : Thread nD τ).loc main_arg1))) := (W10_v27 m ρ c).trans (wcol9 m ρ c)
theorem b1_2 : W2 m ρ c (Proc.devRef .tc main_arg3) = m ((c : Thread nD τ).loc main_arg3) := (W2_arg3 m ρ c).trans (W1_arg3 m ρ c)
theorem w2_2 : W2 m ρ c (Proc.devRef .tc main_arg4) = m ((c : Thread nD τ).loc main_arg4) := (W2_arg4 m ρ c).trans (W1_arg4 m ρ c)
theorem a5_2 : W2 m ρ c (Proc.devRef .tc main_arg5) = m ((c : Thread nD τ).loc main_arg5) := (W2_arg5 m ρ c).trans (W1_arg5 m ρ c)
theorem a5_5 : W5 m ρ c (Proc.devRef .tc main_arg5) = m ((c : Thread nD τ).loc main_arg5) := (W5_arg5 m ρ c).trans (a5_2 m ρ c)
theorem a5_6 : W6 m ρ c (Proc.devRef .tc main_arg5) = m ((c : Thread nD τ).loc main_arg5) := (W6_arg5 m ρ c).trans (a5_5 m ρ c)
theorem a6_2 : W2 m ρ c (Proc.devRef .tc main_arg6) = m ((c : Thread nD τ).loc main_arg6) := (W2_arg6 m ρ c).trans (W1_arg6 m ρ c)
theorem a6_5 : W5 m ρ c (Proc.devRef .tc main_arg6) = m ((c : Thread nD τ).loc main_arg6) := (W5_arg6 m ρ c).trans (a6_2 m ρ c)
theorem a6_6 : W6 m ρ c (Proc.devRef .tc main_arg6) = m ((c : Thread nD τ).loc main_arg6) := (W6_arg6 m ρ c).trans (a6_5 m ρ c)
theorem a7_2 : W2 m ρ c (Proc.devRef .tc main_arg7) = m ((c : Thread nD τ).loc main_arg7) := (W2_arg7 m ρ c).trans (W1_arg7 m ρ c)
theorem a7_5 : W5 m ρ c (Proc.devRef .tc main_arg7) = m ((c : Thread nD τ).loc main_arg7) := (W5_arg7 m ρ c).trans (a7_2 m ρ c)
theorem a7_6 : W6 m ρ c (Proc.devRef .tc main_arg7) = m ((c : Thread nD τ).loc main_arg7) := (W6_arg7 m ρ c).trans (a7_5 m ρ c)
theorem a7_9 : W9 m ρ c (Proc.devRef .tc main_arg7) = m ((c : Thread nD τ).loc main_arg7) := (W9_arg7 m ρ c).trans (a7_6 m ρ c)
theorem a7_10 : W10 m ρ c (Proc.devRef .tc main_arg7) = m ((c : Thread nD τ).loc main_arg7) := (W10_arg7 m ρ c).trans (a7_9 m ρ c)

end Cert.KernelIdeal.Fold

end
-- ==== Proof.MatProd.lean ====
/-
  The three dense products of the network, as plain sums over the extended reals.

  Layer k multiplies the node-feature matrix [100000, K] by a weight matrix [K, N]; entry (r, c) of the product is
  the sum over the K features of (row r, feature k) times (feature k, column c).  Nothing here depends on a program:
  the shapes are literal and an index is built from its two coordinates.
-/
import Idealize.ShloMosaic.PureOps.Ideal
import Idealize.ShloMosaic.Lib.ValueIdx

noncomputable section

namespace Cert.Gcn

open Idealize.ShloMosaic Idealize.ShloMosaic.ValueIdx

/-- Row `r` of a [100000, K] matrix at feature `k`: the index (r, k), with `r` taken from an index of the
    [100000, N] product. -/
abbrev lhsAt {K N : Nat} (i : (⟨2, ![100000, N]⟩ : Shape).Idx) (k : Fin K) : (⟨2, ![100000, K]⟩ : Shape).Idx :=
  ix2 (⟨(i 0).val, idx2_lt0 i⟩ : Fin 100000) k

/-- Column `c` of a [K, N] matrix at feature `k`: the index (k, c). -/
abbrev rhsAt {K N : Nat} (i : (⟨2, ![100000, N]⟩ : Shape).Idx) (k : Fin K) : (⟨2, ![K, N]⟩ : Shape).Idx :=
  ix2 k (⟨(i 1).val, idx2_lt1 i⟩ : Fin N)

/-- [100000, 500] · [500, 128]. -/
def prod1 (X : (⟨2, ![100000, 500]⟩ : Shape).Idx → EReal) (W : (⟨2, ![500, 128]⟩ : Shape).Idx → EReal) :
    (⟨2, ![100000, 128]⟩ : Shape).Idx → EReal :=
  fun i => ∑ k : Fin 500, X (lhsAt i k) * W (rhsAt i k)

/-- [100000, 128] · [128, 64]. -/
def prod2 (X : (⟨2, ![100000, 128]⟩ : Shape).Idx → EReal) (W : (⟨2, ![128, 64]⟩ : Shape).Idx → EReal) :
    (⟨2, ![100000, 64]⟩ : Shape).Idx → EReal :=
  fun i => ∑ k : Fin 128, X (lhsAt i k) * W (rhsAt i k)

/-- [100000, 64] · [64, 40]. -/
def prod3 (X : (⟨2, ![100000, 64]⟩ : Shape).Idx → EReal) (W : (⟨2, ![64, 40]⟩ : Shape).Idx → EReal) :
    (⟨2, ![100000, 40]⟩ : Shape).Idx → EReal :=
  fun i => ∑ k : Fin 64, X (lhsAt i k) * W (rhsAt i k)

end Cert.Gcn

end
-- ==== Proof.RegionProd.lean ====
/-
  Each of the network's three dense layers, run block by block, leaves the whole matrix product.

  A layer multiplies a [100000, K] matrix by a [K, N] weight in ten steps; step t takes rows 10000·t … 10000·t + 9999
  of the left matrix and the whole weight, multiplies them into a zero accumulator, and writes the [10000, N] result to
  the same rows of the output. Read on the extended reals the number formats play no part and adding to zero changes
  nothing, so entry (p, q) of a step's result is the sum over the K features of (row 10000·t + p, feature k) times
  (feature k, column q). The ten row ranges tile the 100000 rows — row r belongs to step r / 10000 — so after the ten
  steps the output is the product, entry by entry, whatever the two arrays held when the layer began.
  (K, N) = (500, 128), (128, 64), (64, 40).
-/
import proofs.«119956_j7559142441490_1_alg».proof.Proof.Gen.KernelIdeal.Frame
import proofs.«119956_j7559142441490_1_alg».proof.Proof.MatProd
import Idealize.ShloMosaic.Lib.Pipeline.Value
import Idealize.ShloMosaic.Lib.ValueIdx
import Idealize.ShloMosaic.PureOps.Ideal.Laws

noncomputable section

namespace Cert.KernelIdeal.RegionProd

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The two zero offsets of a whole-buffer access, as the constant function. -/
theorem zero_offsets : (![0, 0] : Fin 2 → Nat) = fun _ => 0 := funext fun a => by fin_cases a <;> rfl

/-! ## Layer 1: [100000, 500] · [500, 128] -/

/-- Which entries the block product reads: the left operand's row is the output row, -/
theorem lhsRow0 (i : S10000x128.Idx) (κ : dot_S10000x500_S500x128_S10000x128_1_0_0_1_n_n.contr.Idx) :
    (dot_S10000x500_S500x128_S10000x128_1_0_0_1_n_n.lhsIdx i κ 0).val = (i 0).val := by
  unfold DotDims.lhsIdx
  rw [dif_neg (show ¬(0 : Fin S10000x500.rank) ∈ dot_S10000x500_S500x128_S10000x128_1_0_0_1_n_n.lhsBatch by decide), dif_pos (show (0 : Fin S10000x500.rank) ∈ dot_S10000x500_S500x128_S10000x128_1_0_0_1_n_n.lhsNonContracting by decide)]
  rfl
/-- its column the summation index; -/
theorem lhsCol0 (i : S10000x128.Idx) (κ : dot_S10000x500_S500x128_S10000x128_1_0_0_1_n_n.contr.Idx) :
    (dot_S10000x500_S500x128_S10000x128_1_0_0_1_n_n.lhsIdx i κ 1).val = (κ ⟨0, by decide⟩).val :=
  dot_S10000x500_S500x128_S10000x128_1_0_0_1_n_n.lhsIdx_val_of_single rfl i κ
/-- the right operand's row is the summation index, -/
theorem rhsRow0 (i : S10000x128.Idx) (κ : dot_S10000x500_S500x128_S10000x128_1_0_0_1_n_n.contr.Idx) :
    (dot_S10000x500_S500x128_S10000x128_1_0_0_1_n_n.rhsIdx i κ 0).val = (κ ⟨0, by decide⟩).val :=
  dot_S10000x500_S500x128_S10000x128_1_0_0_1_n_n.rhsIdx_val_of_single rfl i κ
/-- its column the output column. -/
theorem rhsCol0 (i : S10000x128.Idx) (κ : dot_S10000x500_S500x128_S10000x128_1_0_0_1_n_n.contr.Idx) :
    (dot_S10000x500_S500x128_S10000x128_1_0_0_1_n_n.rhsIdx i κ 1).val = (i 1).val := by
  unfold DotDims.rhsIdx
  rw [dif_neg (show ¬(1 : Fin S500x128.rank) ∈ dot_S10000x500_S500x128_S10000x128_1_0_0_1_n_n.rhsBatch by decide), dif_pos (show (1 : Fin S500x128.rank) ∈ dot_S10000x500_S500x128_S10000x128_1_0_0_1_n_n.rhsNonContracting by decide)]
  rfl

/-- One block's matrix product at an entry: entry (p, q) of the [10000, 128] result is the sum over the 500
    features of the row block at (p, k) times the weight at (k, q). Changing the number format is the identity on
    the extended reals, and the zero accumulator adds nothing. -/
theorem blockProd0_apply (x0 : Vec Ideal S10000x500 .bf16) (x1 : Vec Ideal S500x128 .bf16) (p : Fin 10000) (q : Fin 128) :
    k0_pay1 x0 x1 (ix2 p q) = ∑ k : Fin 500, x0 (ix2 p k) * x1 (ix2 k q) := by
  unfold k0_pay1
  simp only [shapeCast_self]
  refine (Ideal.matmul_constant_zero_apply (φ₁ := .bf16) (φ₂ := .bf16) dot_S10000x500_S500x128_S10000x128_1_0_0_1_n_n none x0 x1 (ix2 p q)).trans ?_
  rw [← Equiv.sum_comp (ValueIdx.contrEquiv1 dot_S10000x500_S500x128_S10000x128_1_0_0_1_n_n 500 rfl rfl).symm]
  refine Finset.sum_congr rfl fun k _ => ?_
  have hk := ValueIdx.contrEquiv1_symm_val dot_S10000x500_S500x128_S10000x128_1_0_0_1_n_n 500 rfl rfl k
  have el : dot_S10000x500_S500x128_S10000x128_1_0_0_1_n_n.lhsIdx (ix2 p q) ((ValueIdx.contrEquiv1 dot_S10000x500_S500x128_S10000x128_1_0_0_1_n_n 500 rfl rfl).symm k) = ix2 p k := funext fun a => Fin.ext (by
    match a with
    | ⟨0, _⟩ => exact lhsRow0 _ _
    | ⟨1, _⟩ => exact (lhsCol0 _ _).trans hk)
  have er : dot_S10000x500_S500x128_S10000x128_1_0_0_1_n_n.rhsIdx (ix2 p q) ((ValueIdx.contrEquiv1 dot_S10000x500_S500x128_S10000x128_1_0_0_1_n_n 500 rfl rfl).symm k) = ix2 k q := funext fun a => Fin.ext (by
    match a with
    | ⟨0, _⟩ => exact (rhsRow0 _ _).trans hk
    | ⟨1, _⟩ => exact rhsCol0 _ _)
  rw [el, er]

/-- Where the three windows sit at grid point `t`: the row block and the result block are the `t`-th of their
    arrays, the weight is the whole matrix at every point (decided over the ten points). -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row block at point `t` is rows 10000·t … 10000·t + 9999 of the staged [100000, 500] array. -/
theorem rowBlock0_apply (c : Dev nD) (t : Fin cfg0.N) (x : S10000x500.Idx) (i : S100000x500.Idx)
    (h0 : (i 0).val = 10000 * t.val + (x 0).val) (h1 : (i 1).val = (x 1).val) :
    (iblk0 V c 0 t : Vec Ideal S10000x500 .bf16) x = (V c main_v28 : S100000x500.Idx → EReal) i := by
  obtain ⟨e0, e1, -⟩ := blockIndex0 t
  unfold iblk0
  rw [View.read_apply]
  show V c main_v28 _ = V c main_v28 _
  congr 1
  funext a
  apply Fin.ext
  match a with
  | ⟨0, _⟩ => show win0_0.index t (0 : Fin 2) * 10000 + 1 * (x 0).val = (i 0).val; rw [e0, h0]; omega
  | ⟨1, _⟩ => show win0_0.index t (1 : Fin 2) * 500 + 1 * (x 1).val = (i 1).val; rw [e1, h1]; omega

/-- The weight block at every point is the whole staged [500, 128] matrix. -/
theorem weight0_apply (c : Dev nD) (t : Fin cfg0.N) (x : S500x128.Idx) (i : S500x128.Idx)
    (h0 : (i 0).val = (x 0).val) (h1 : (i 1).val = (x 1).val) :
    (iblk0 V c 1 t : Vec Ideal S500x128 .bf16) x = (V c main_v29 : S500x128.Idx → EReal) i := by
  obtain ⟨-, -, e2, e3, -⟩ := blockIndex0 t
  unfold iblk0
  rw [View.read_apply]
  show V c main_v29 _ = V c main_v29 _
  congr 1
  funext a
  apply Fin.ext
  match a with
  | ⟨0, _⟩ => show win0_1.index t (0 : Fin 2) * 500 + 1 * (x 0).val = (i 0).val; rw [e2, h0]; omega
  | ⟨1, _⟩ => show win0_1.index t (1 : Fin 2) * 128 + 1 * (x 1).val = (i 1).val; rw [e3, h1]; omega

/-- What grid point `t` writes back is block `t` of the whole product: entry (p, q) of the block is entry
    (10000·t + p, q) of the product, and the sum over the features reads the same entries of the two staged arrays. -/
theorem writeBack0 (c : Dev nD) (t : Fin cfg0.N) :
    (dat0 V c).flushed 2 t = ((cfg0.win 2).blk t).view.read (Elt Ideal) (Cert.Gcn.prod1 (V c main_v28) (V c main_v29)) := by
  show (cfg0.win 2).cut (grid0.coords t) ((dat0 V c).after 2 t) = _
  rw [after0_2]
  unfold out0_2
  rw [View.canon_unit_zero zero_offsets]
  simp only [View.ld_unit_zero (S := S10000x500) zero_offsets, View.ld_unit_zero (S := S500x128) zero_offsets]
  obtain ⟨-, -, -, -, e4, e5⟩ := blockIndex0 t
  funext j
  obtain ⟨p, q, rfl⟩ : ∃ (p : Fin 10000) (q : Fin 128), j = ix2 p q := ⟨j 0, j 1, eq_ix2 j⟩
  show k0_pay1 (iblk0 V c 0 t) (iblk0 V c 1 t) (ix2 p q)
    = Cert.Gcn.prod1 (V c main_v28) (V c main_v29) (((cfg0.win 2).blk t).view.emb (ix2 p q))
  rw [blockProd0_apply (iblk0 V c 0 t) (iblk0 V c 1 t) p q]
  unfold Cert.Gcn.prod1
  refine Finset.sum_congr rfl fun k _ => ?_
  have hl := rowBlock0_apply V c t (ix2 p k) (Cert.Gcn.lhsAt (((cfg0.win 2).blk t).view.emb (ix2 p q)) k)
    (by show win0_2.index t (0 : Fin 2) * 10000 + 1 * p.val = 10000 * t.val + p.val; rw [e4]; omega) rfl
  have hr := weight0_apply V c t (ix2 k q) (Cert.Gcn.rhsAt (((cfg0.win 2).blk t).view.emb (ix2 p q)) k)
    rfl (by show win0_2.index t (1 : Fin 2) * 128 + 1 * q.val = q.val; rw [e5]; omega)
  rw [hl, hr]

/-- An entry of the [100000, 128] result lies in point `t`'s block exactly when each coordinate lies in the block's
    range on its axis. -/
theorem mem_block0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v30).slice (win0_2.rect t)).set ↔ _
  rw [View.set_slice_whole, Rect.mem_set_unit]
  exact Iff.rfl

/-- The ten row blocks tile the result: row `r` lies in the block of point `r / 10000`. -/
theorem blocks_cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 10 := N_0
  let t : Fin cfg0.N := ⟨(i 0).val / 10000, by show (i 0).val / 10000 < grid0.N; omega⟩
  obtain ⟨-, -, -, -, e4, e5⟩ := blockIndex0 t
  refine ⟨t, flush0_2 t, ?_⟩
  rw [mem_block0]
  intro a
  match a with
  | ⟨0, _⟩ => show win0_2.index t (0 : Fin 2) * 10000 ≤ (i 0).val ∧ (i 0).val < win0_2.index t (0 : Fin 2) * 10000 + 10000; rw [e4]; show (i 0).val / 10000 * 10000 ≤ (i 0).val ∧ (i 0).val < (i 0).val / 10000 * 10000 + 10000; omega
  | ⟨1, _⟩ => show win0_2.index t (1 : Fin 2) * 128 ≤ (i 1).val ∧ (i 1).val < win0_2.index t (1 : Fin 2) * 128 + 128; rw [e5]; omega

/-- After the region's ten grid points its output array is the whole product of the two staged arrays. -/
theorem arr0 (c : Dev nD) :
    (Gen.dat0 (F := Ideal) V c).arrAt 2 cfg0.N = Cert.Gcn.prod1 (V c main_v28) (V c main_v29) :=
  (dat0 V c).arrAt_eq_of_cover 2 (Cert.Gcn.prod1 (V c main_v28) (V c main_v29)) (fun t _ => writeBack0 V c t) blocks_cover0

/-! ## Layer 2: [100000, 128] · [128, 64] -/

/-- Which entries the block product reads: the left operand's row is the output row, -/
theorem lhsRow1 (i : S10000x64.Idx) (κ : dot_S10000x128_S128x64_S10000x64_1_0_0_1_n_n.contr.Idx) :
    (dot_S10000x128_S128x64_S10000x64_1_0_0_1_n_n.lhsIdx i κ 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
/-- its column the summation index; -/
theorem lhsCol1 (i : S10000x64.Idx) (κ : dot_S10000x128_S128x64_S10000x64_1_0_0_1_n_n.contr.Idx) :
    (dot_S10000x128_S128x64_S10000x64_1_0_0_1_n_n.lhsIdx i κ 1).val = (κ ⟨0, by decide⟩).val :=
  dot_S10000x128_S128x64_S10000x64_1_0_0_1_n_n.lhsIdx_val_of_single rfl i κ
/-- the right operand's row is the summation index, -/
theorem rhsRow1 (i : S10000x64.Idx) (κ : dot_S10000x128_S128x64_S10000x64_1_0_0_1_n_n.contr.Idx) :
    (dot_S10000x128_S128x64_S10000x64_1_0_0_1_n_n.rhsIdx i κ 0).val = (κ ⟨0, by decide⟩).val :=
  dot_S10000x128_S128x64_S10000x64_1_0_0_1_n_n.rhsIdx_val_of_single rfl i κ
/-- its column the output column. -/
theorem rhsCol1 (i : S10000x64.Idx) (κ : dot_S10000x128_S128x64_S10000x64_1_0_0_1_n_n.contr.Idx) :
    (dot_S10000x128_S128x64_S10000x64_1_0_0_1_n_n.rhsIdx i κ 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- One block's matrix product at an entry: entry (p, q) of the [10000, 64] result is the sum over the 128
    features of the row block at (p, k) times the weight at (k, q). Changing the number format is the identity on
    the extended reals, and the zero accumulator adds nothing. -/
theorem blockProd1_apply (x0 : Vec Ideal S10000x128 .bf16) (x1 : Vec Ideal S128x64 .bf16) (p : Fin 10000) (q : Fin 64) :
    k1_pay1 x0 x1 (ix2 p q) = ∑ k : Fin 128, x0 (ix2 p k) * x1 (ix2 k q) := by
  unfold k1_pay1
  simp only [shapeCast_self]
  refine (Ideal.matmul_constant_zero_apply (φ₁ := .bf16) (φ₂ := .bf16) dot_S10000x128_S128x64_S10000x64_1_0_0_1_n_n none x0 x1 (ix2 p q)).trans ?_
  rw [← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx (ix2 p q) ((ValueIdx.contrEquiv1 dot_S10000x128_S128x64_S10000x64_1_0_0_1_n_n 128 rfl rfl).symm k) = ix2 p k := funext fun a => Fin.ext (by
    match a with
    | ⟨0, _⟩ => exact lhsRow1 _ _
    | ⟨1, _⟩ => exact (lhsCol1 _ _).trans hk)
  have er : dot_S10000x128_S128x64_S10000x64_1_0_0_1_n_n.rhsIdx (ix2 p q) ((ValueIdx.contrEquiv1 dot_S10000x128_S128x64_S10000x64_1_0_0_1_n_n 128 rfl rfl).symm k) = ix2 k q := funext fun a => Fin.ext (by
    match a with
    | ⟨0, _⟩ => exact (rhsRow1 _ _).trans hk
    | ⟨1, _⟩ => exact rhsCol1 _ _)
  rw [el, er]

/-- Where the three windows sit at grid point `t`: the row block and the result block are the `t`-th of their
    arrays, the weight is the whole matrix at every point (decided over the ten points). -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The row block at point `t` is rows 10000·t … 10000·t + 9999 of the staged [100000, 128] array. -/
theorem rowBlock1_apply (c : Dev nD) (t : Fin cfg1.N) (x : S10000x128.Idx) (i : S100000x128.Idx)
    (h0 : (i 0).val = 10000 * t.val + (x 0).val) (h1 : (i 1).val = (x 1).val) :
    (iblk1 V c 0 t : Vec Ideal S10000x128 .bf16) x = (V c main_v47 : S100000x128.Idx → EReal) i := by
  obtain ⟨e0, e1, -⟩ := blockIndex1 t
  unfold iblk1
  rw [View.read_apply]
  show V c main_v47 _ = V c main_v47 _
  congr 1
  funext a
  apply Fin.ext
  match a with
  | ⟨0, _⟩ => show win1_0.index t (0 : Fin 2) * 10000 + 1 * (x 0).val = (i 0).val; rw [e0, h0]; omega
  | ⟨1, _⟩ => show win1_0.index t (1 : Fin 2) * 128 + 1 * (x 1).val = (i 1).val; rw [e1, h1]; omega

/-- The weight block at every point is the whole staged [128, 64] matrix. -/
theorem weight1_apply (c : Dev nD) (t : Fin cfg1.N) (x : S128x64.Idx) (i : S128x64.Idx)
    (h0 : (i 0).val = (x 0).val) (h1 : (i 1).val = (x 1).val) :
    (iblk1 V c 1 t : Vec Ideal S128x64 .bf16) x = (V c main_v48 : S128x64.Idx → EReal) i := by
  obtain ⟨-, -, e2, e3, -⟩ := blockIndex1 t
  unfold iblk1
  rw [View.read_apply]
  show V c main_v48 _ = V c main_v48 _
  congr 1
  funext a
  apply Fin.ext
  match a with
  | ⟨0, _⟩ => show win1_1.index t (0 : Fin 2) * 128 + 1 * (x 0).val = (i 0).val; rw [e2, h0]; omega
  | ⟨1, _⟩ => show win1_1.index t (1 : Fin 2) * 64 + 1 * (x 1).val = (i 1).val; rw [e3, h1]; omega

/-- What grid point `t` writes back is block `t` of the whole product: entry (p, q) of the block is entry
    (10000·t + p, q) of the product, and the sum over the features reads the same entries of the two staged arrays. -/
theorem writeBack1 (c : Dev nD) (t : Fin cfg1.N) :
    (dat1 V c).flushed 2 t = ((cfg1.win 2).blk t).view.read (Elt Ideal) (Cert.Gcn.prod2 (V c main_v47) (V c main_v48)) := by
  show (cfg1.win 2).cut (grid1.coords t) ((dat1 V c).after 2 t) = _
  rw [after1_2]
  unfold out1_2
  rw [View.canon_unit_zero zero_offsets]
  simp only [View.ld_unit_zero (S := S10000x128) zero_offsets, View.ld_unit_zero (S := S128x64) zero_offsets]
  obtain ⟨-, -, -, -, e4, e5⟩ := blockIndex1 t
  funext j
  obtain ⟨p, q, rfl⟩ : ∃ (p : Fin 10000) (q : Fin 64), j = ix2 p q := ⟨j 0, j 1, eq_ix2 j⟩
  show k1_pay1 (iblk1 V c 0 t) (iblk1 V c 1 t) (ix2 p q)
    = Cert.Gcn.prod2 (V c main_v47) (V c main_v48) (((cfg1.win 2).blk t).view.emb (ix2 p q))
  rw [blockProd1_apply (iblk1 V c 0 t) (iblk1 V c 1 t) p q]
  unfold Cert.Gcn.prod2
  refine Finset.sum_congr rfl fun k _ => ?_
  have hl := rowBlock1_apply V c t (ix2 p k) (Cert.Gcn.lhsAt (((cfg1.win 2).blk t).view.emb (ix2 p q)) k)
    (by show win1_2.index t (0 : Fin 2) * 10000 + 1 * p.val = 10000 * t.val + p.val; rw [e4]; omega) rfl
  have hr := weight1_apply V c t (ix2 k q) (Cert.Gcn.rhsAt (((cfg1.win 2).blk t).view.emb (ix2 p q)) k)
    rfl (by show win1_2.index t (1 : Fin 2) * 64 + 1 * q.val = q.val; rw [e5]; omega)
  rw [hl, hr]

/-- An entry of the [100000, 64] result lies in point `t`'s block exactly when each coordinate lies in the block's
    range on its axis. -/
theorem mem_block1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v49).slice (win1_2.rect t)).set ↔ _
  rw [View.set_slice_whole, Rect.mem_set_unit]
  exact Iff.rfl

/-- The ten row blocks tile the result: row `r` lies in the block of point `r / 10000`. -/
theorem blocks_cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : grid1.N = 10 := N_1
  let t : Fin cfg1.N := ⟨(i 0).val / 10000, by show (i 0).val / 10000 < grid1.N; omega⟩
  obtain ⟨-, -, -, -, e4, e5⟩ := blockIndex1 t
  refine ⟨t, flush1_2 t, ?_⟩
  rw [mem_block1]
  intro a
  match a with
  | ⟨0, _⟩ => show win1_2.index t (0 : Fin 2) * 10000 ≤ (i 0).val ∧ (i 0).val < win1_2.index t (0 : Fin 2) * 10000 + 10000; rw [e4]; show (i 0).val / 10000 * 10000 ≤ (i 0).val ∧ (i 0).val < (i 0).val / 10000 * 10000 + 10000; omega
  | ⟨1, _⟩ => show win1_2.index t (1 : Fin 2) * 64 ≤ (i 1).val ∧ (i 1).val < win1_2.index t (1 : Fin 2) * 64 + 64; rw [e5]; omega

/-- After the region's ten grid points its output array is the whole product of the two staged arrays. -/
theorem arr1 (c : Dev nD) :
    (Gen.dat1 (F := Ideal) V c).arrAt 2 cfg1.N = Cert.Gcn.prod2 (V c main_v47) (V c main_v48) :=
  (dat1 V c).arrAt_eq_of_cover 2 (Cert.Gcn.prod2 (V c main_v47) (V c main_v48)) (fun t _ => writeBack1 V c t) blocks_cover1

/-! ## Layer 3: [100000, 64] · [64, 40] -/

/-- Which entries the block product reads: the left operand's row is the output row, -/
theorem lhsRow2 (i : S10000x40.Idx) (κ : dot_S10000x64_S64x40_S10000x40_1_0_0_1_n_n.contr.Idx) :
    (dot_S10000x64_S64x40_S10000x40_1_0_0_1_n_n.lhsIdx i κ 0).val = (i 0).val := by
  unfold DotDims.lhsIdx
  rw [dif_neg (show ¬(0 : Fin S10000x64.rank) ∈ dot_S10000x64_S64x40_S10000x40_1_0_0_1_n_n.lhsBatch by decide), dif_pos (show (0 : Fin S10000x64.rank) ∈ dot_S10000x64_S64x40_S10000x40_1_0_0_1_n_n.lhsNonContracting by decide)]
  rfl
/-- its column the summation index; -/
theorem lhsCol2 (i : S10000x40.Idx) (κ : dot_S10000x64_S64x40_S10000x40_1_0_0_1_n_n.contr.Idx) :
    (dot_S10000x64_S64x40_S10000x40_1_0_0_1_n_n.lhsIdx i κ 1).val = (κ ⟨0, by decide⟩).val :=
  dot_S10000x64_S64x40_S10000x40_1_0_0_1_n_n.lhsIdx_val_of_single rfl i κ
/-- the right operand's row is the summation index, -/
theorem rhsRow2 (i : S10000x40.Idx) (κ : dot_S10000x64_S64x40_S10000x40_1_0_0_1_n_n.contr.Idx) :
    (dot_S10000x64_S64x40_S10000x40_1_0_0_1_n_n.rhsIdx i κ 0).val = (κ ⟨0, by decide⟩).val :=
  dot_S10000x64_S64x40_S10000x40_1_0_0_1_n_n.rhsIdx_val_of_single rfl i κ
/-- its column the output column. -/
theorem rhsCol2 (i : S10000x40.Idx) (κ : dot_S10000x64_S64x40_S10000x40_1_0_0_1_n_n.contr.Idx) :
    (dot_S10000x64_S64x40_S10000x40_1_0_0_1_n_n.rhsIdx i κ 1).val = (i 1).val := by
  unfold DotDims.rhsIdx
  rw [dif_neg (show ¬(1 : Fin S64x40.rank) ∈ dot_S10000x64_S64x40_S10000x40_1_0_0_1_n_n.rhsBatch by decide), dif_pos (show (1 : Fin S64x40.rank) ∈ dot_S10000x64_S64x40_S10000x40_1_0_0_1_n_n.rhsNonContracting by decide)]
  rfl

/-- One block's matrix product at an entry: entry (p, q) of the [10000, 40] result is the sum over the 64
    features of the row block at (p, k) times the weight at (k, q). Changing the number format is the identity on
    the extended reals, and the zero accumulator adds nothing. -/
theorem blockProd2_apply (x0 : Vec Ideal S10000x64 .bf16) (x1 : Vec Ideal S64x40 .bf16) (p : Fin 10000) (q : Fin 40) :
    k2_pay1 x0 x1 (ix2 p q) = ∑ k : Fin 64, x0 (ix2 p k) * x1 (ix2 k q) := by
  unfold k2_pay1
  simp only [shapeCast_self]
  refine (Ideal.matmul_constant_zero_apply (φ₁ := .bf16) (φ₂ := .bf16) dot_S10000x64_S64x40_S10000x40_1_0_0_1_n_n none x0 x1 (ix2 p q)).trans ?_
  rw [← Equiv.sum_comp (ValueIdx.contrEquiv1 dot_S10000x64_S64x40_S10000x40_1_0_0_1_n_n 64 rfl rfl).symm]
  refine Finset.sum_congr rfl fun k _ => ?_
  have hk := ValueIdx.contrEquiv1_symm_val dot_S10000x64_S64x40_S10000x40_1_0_0_1_n_n 64 rfl rfl k
  have el : dot_S10000x64_S64x40_S10000x40_1_0_0_1_n_n.lhsIdx (ix2 p q) ((ValueIdx.contrEquiv1 dot_S10000x64_S64x40_S10000x40_1_0_0_1_n_n 64 rfl rfl).symm k) = ix2 p k := funext fun a => Fin.ext (by
    match a with
    | ⟨0, _⟩ => exact lhsRow2 _ _
    | ⟨1, _⟩ => exact (lhsCol2 _ _).trans hk)
  have er : dot_S10000x64_S64x40_S10000x40_1_0_0_1_n_n.rhsIdx (ix2 p q) ((ValueIdx.contrEquiv1 dot_S10000x64_S64x40_S10000x40_1_0_0_1_n_n 64 rfl rfl).symm k) = ix2 k q := funext fun a => Fin.ext (by
    match a with
    | ⟨0, _⟩ => exact (rhsRow2 _ _).trans hk
    | ⟨1, _⟩ => exact rhsCol2 _ _)
  rw [el, er]

/-- Where the three windows sit at grid point `t`: the row block and the result block are the `t`-th of their
    arrays, the weight is the whole matrix at every point (decided over the ten points). -/
theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The row block at point `t` is rows 10000·t … 10000·t + 9999 of the staged [100000, 64] array. -/
theorem rowBlock2_apply (c : Dev nD) (t : Fin cfg2.N) (x : S10000x64.Idx) (i : S100000x64.Idx)
    (h0 : (i 0).val = 10000 * t.val + (x 0).val) (h1 : (i 1).val = (x 1).val) :
    (iblk2 V c 0 t : Vec Ideal S10000x64 .bf16) x = (V c main_v66 : S100000x64.Idx → EReal) i := by
  obtain ⟨e0, e1, -⟩ := blockIndex2 t
  unfold iblk2
  rw [View.read_apply]
  show V c main_v66 _ = V c main_v66 _
  congr 1
  funext a
  apply Fin.ext
  match a with
  | ⟨0, _⟩ => show win2_0.index t (0 : Fin 2) * 10000 + 1 * (x 0).val = (i 0).val; rw [e0, h0]; omega
  | ⟨1, _⟩ => show win2_0.index t (1 : Fin 2) * 64 + 1 * (x 1).val = (i 1).val; rw [e1, h1]; omega

/-- The weight block at every point is the whole staged [64, 40] matrix. -/
theorem weight2_apply (c : Dev nD) (t : Fin cfg2.N) (x : S64x40.Idx) (i : S64x40.Idx)
    (h0 : (i 0).val = (x 0).val) (h1 : (i 1).val = (x 1).val) :
    (iblk2 V c 1 t : Vec Ideal S64x40 .bf16) x = (V c main_v67 : S64x40.Idx → EReal) i := by
  obtain ⟨-, -, e2, e3, -⟩ := blockIndex2 t
  unfold iblk2
  rw [View.read_apply]
  show V c main_v67 _ = V c main_v67 _
  congr 1
  funext a
  apply Fin.ext
  match a with
  | ⟨0, _⟩ => show win2_1.index t (0 : Fin 2) * 64 + 1 * (x 0).val = (i 0).val; rw [e2, h0]; omega
  | ⟨1, _⟩ => show win2_1.index t (1 : Fin 2) * 40 + 1 * (x 1).val = (i 1).val; rw [e3, h1]; omega

/-- What grid point `t` writes back is block `t` of the whole product: entry (p, q) of the block is entry
    (10000·t + p, q) of the product, and the sum over the features reads the same entries of the two staged arrays. -/
theorem writeBack2 (c : Dev nD) (t : Fin cfg2.N) :
    (dat2 V c).flushed 2 t = ((cfg2.win 2).blk t).view.read (Elt Ideal) (Cert.Gcn.prod3 (V c main_v66) (V c main_v67)) := by
  show (cfg2.win 2).cut (grid2.coords t) ((dat2 V c).after 2 t) = _
  rw [after2_2]
  unfold out2_2
  rw [View.canon_unit_zero zero_offsets]
  simp only [View.ld_unit_zero (S := S10000x64) zero_offsets, View.ld_unit_zero (S := S64x40) zero_offsets]
  obtain ⟨-, -, -, -, e4, e5⟩ := blockIndex2 t
  funext j
  obtain ⟨p, q, rfl⟩ : ∃ (p : Fin 10000) (q : Fin 40), j = ix2 p q := ⟨j 0, j 1, eq_ix2 j⟩
  show k2_pay1 (iblk2 V c 0 t) (iblk2 V c 1 t) (ix2 p q)
    = Cert.Gcn.prod3 (V c main_v66) (V c main_v67) (((cfg2.win 2).blk t).view.emb (ix2 p q))
  rw [blockProd2_apply (iblk2 V c 0 t) (iblk2 V c 1 t) p q]
  unfold Cert.Gcn.prod3
  refine Finset.sum_congr rfl fun k _ => ?_
  have hl := rowBlock2_apply V c t (ix2 p k) (Cert.Gcn.lhsAt (((cfg2.win 2).blk t).view.emb (ix2 p q)) k)
    (by show win2_2.index t (0 : Fin 2) * 10000 + 1 * p.val = 10000 * t.val + p.val; rw [e4]; omega) rfl
  have hr := weight2_apply V c t (ix2 k q) (Cert.Gcn.rhsAt (((cfg2.win 2).blk t).view.emb (ix2 p q)) k)
    rfl (by show win2_2.index t (1 : Fin 2) * 40 + 1 * q.val = q.val; rw [e5]; omega)
  rw [hl, hr]

/-- An entry of the [100000, 40] result lies in point `t`'s block exactly when each coordinate lies in the block's
    range on its axis. -/
theorem mem_block2 (t : Fin cfg2.N) (i : S100000x40.Idx) :
    i ∈ ((cfg2.win 2).blk t).view.set ↔ ∀ a : Fin 2, win2_2.index t a * S10000x40.size a ≤ (i a).val ∧ (i a).val < win2_2.index t a * S10000x40.size a + S10000x40.size a := by
  show i ∈ ((View.whole main_v68).slice (win2_2.rect t)).set ↔ _
  rw [View.set_slice_whole, Rect.mem_set_unit]
  exact Iff.rfl

/-- The ten row blocks tile the result: row `r` lies in the block of point `r / 10000`. -/
theorem blocks_cover2 (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  have hN : grid2.N = 10 := N_2
  let t : Fin cfg2.N := ⟨(i 0).val / 10000, by show (i 0).val / 10000 < grid2.N; omega⟩
  obtain ⟨-, -, -, -, e4, e5⟩ := blockIndex2 t
  refine ⟨t, flush2_2 t, ?_⟩
  rw [mem_block2]
  intro a
  match a with
  | ⟨0, _⟩ => show win2_2.index t (0 : Fin 2) * 10000 ≤ (i 0).val ∧ (i 0).val < win2_2.index t (0 : Fin 2) * 10000 + 10000; rw [e4]; show (i 0).val / 10000 * 10000 ≤ (i 0).val ∧ (i 0).val < (i 0).val / 10000 * 10000 + 10000; omega
  | ⟨1, _⟩ => show win2_2.index t (1 : Fin 2) * 40 ≤ (i 1).val ∧ (i 1).val < win2_2.index t (1 : Fin 2) * 40 + 40; rw [e5]; omega

/-- After the region's ten grid points its output array is the whole product of the two staged arrays. -/
theorem arr2 (c : Dev nD) :
    (Gen.dat2 (F := Ideal) V c).arrAt 2 cfg2.N = Cert.Gcn.prod3 (V c main_v66) (V c main_v67) :=
  (dat2 V c).arrAt_eq_of_cover 2 (Cert.Gcn.prod3 (V c main_v66) (V c main_v67)) (fun t _ => writeBack2 V c t) blocks_cover2

end Cert.KernelIdeal.RegionProd
end
-- ==== Proof.Network.lean ====
/-
  The whole network as one function of its eight arguments, over the extended reals.

  Three graph-convolution layers — a dense product, then gather / weight / sum over the edges and a bias —, the first
  two rectified, and a row-wise log-softmax.  Both programs compute this function: the kernel with its products tiled
  into row blocks on the matrix unit, the reference with the host's products; everything around the products is the same
  host arithmetic.
-/
import proofs.«119956_j7559142441490_1_alg».proof.Proof.HostStages
import proofs.«119956_j7559142441490_1_alg».proof.Proof.MatProd

noncomputable section

namespace Cert.Gcn

open Cert.KernelIdeal Cert.KernelIdeal.Stages Idealize.ShloMosaic

/-- Node features `x` [100000, 500], edge list `e` [2, 1600000], weights and biases of the three layers. -/
def network (x : Arr Ideal S100000x500 .f32) (e : Arr Ideal S2x1600000 .i32)
    (W1 : Arr Ideal S500x128 .f32) (b1 : Arr Ideal S128 .f32) (W2 : Arr Ideal S128x64 .f32) (b2 : Arr Ideal S64 .f32)
    (W4 : Arr Ideal S64x40 .f32) (b4 : Arr Ideal S40 .f32) : Arr Ideal S100000x40 .f32 :=
  logSoftmax (layer40 (prod3 (relu64 (layer64 (prod2 (relu128 (layer128 (prod1 x W1)
      (srcIdx e) (dstIdx e) (weightCol (srcIdx e) (dstIdx e)) b1)) W2)
      (srcIdx e) (dstIdx e) (weightCol (srcIdx e) (dstIdx e)) b2)) W4)
      (srcIdx e) (dstIdx e) (weightCol (srcIdx e) (dstIdx e)) b4)

end Cert.Gcn

end
-- ==== Proof.KernelValue.lean ====
/-
  The idealized kernel's result buffer holds the network of its arguments.

  The last fold is read back boundary by boundary: the log-softmax of the third layer of the third region's array;
  that array is the whole product of its two staged arrays (the row blocks tile it); its left operand is the second
  layer, rectified, of the second region's array; and so on down to the arguments.  On the extended reals a change of
  float format is the identity, so the converted operands are the operands themselves.
-/
import proofs.«119956_j7559142441490_1_alg».proof.Proof.KernelFold
import proofs.«119956_j7559142441490_1_alg».proof.Proof.RegionProd
import proofs.«119956_j7559142441490_1_alg».proof.Proof.Network

set_option maxRecDepth 16384

noncomputable section

namespace Cert.KernelIdeal.Result

open Cert.KernelIdeal Cert.KernelIdeal.Gen Cert.KernelIdeal.Stages Cert.Gcn
open Idealize.ShloMosaic Idealize.ShloMosaic.TcCoe Idealize.SL.Sem Idealize.ShloMosaic.StableHlo

-- the row maximum is a fold over four million elements: it is compared by its arguments, never unfolded
attribute [local irreducible] Idealize.ShloMosaic.Host.reduce

variable (m : (ℓ : Loc nD τ sig) → Buf (Elt Ideal) ℓ) (ρ : Dev nD → PrngReg) (c : Dev nD)

/-- On the extended reals a conversion to a narrower float format changes nothing. -/
theorem truncf_id {s : Shape} (X : FVec Ideal s .f32) (h : FTy.bits .bf16 < FTy.bits .f32) :
    (truncf .bf16 X h : s.Idx → EReal) = X := rfl

/-! ## The three regions' arrays: whole products of what they stage -/

theorem region0 : (W2 m ρ c (Proc.devRef .tc main_v30)) = prod1 (m ((c : Thread nD τ).loc main_arg0)) (m ((c : Thread nD τ).loc main_arg2)) := by
  refine (Fold.W2_out m ρ c).trans ((RegionProd.arr0 (V1 m ρ) c).trans ?_)
  show prod1 (W1 m ρ c (Proc.devRef .tc main_v28)) (W1 m ρ c (Proc.devRef .tc main_v29)) = _
  rw [Fold.W1_x, Fold.W1_w, truncf_id, truncf_id]

theorem region1 (X : Arr Ideal S100000x128 .f32) (hX : (W5 m ρ c (Proc.devRef .tc main_v47)) = X) :
    (W6 m ρ c (Proc.devRef .tc main_v49)) = prod2 X (m ((c : Thread nD τ).loc main_arg4)) := by
  refine (Fold.W6_out m ρ c).trans ((RegionProd.arr1 (V5 m ρ) c).trans ?_)
  show prod2 (W5 m ρ c (Proc.devRef .tc main_v47)) (W5 m ρ c (Proc.devRef .tc main_v48)) = _
  rw [hX, Fold.W5_w, Fold.w2_2, truncf_id]

theorem region2 (X : Arr Ideal S100000x64 .f32) (hX : (W9 m ρ c (Proc.devRef .tc main_v66)) = X) :
    (W10 m ρ c (Proc.devRef .tc main_v68)) = prod3 X (m ((c : Thread nD τ).loc main_arg6)) := by
  refine (Fold.W10_out m ρ c).trans ((RegionProd.arr2 (V9 m ρ) c).trans ?_)
  show prod3 (W9 m ρ c (Proc.devRef .tc main_v66)) (W9 m ρ c (Proc.devRef .tc main_v67)) = _
  rw [hX, Fold.W9_w, Fold.a6_6, truncf_id]

/-! ## The layers between them -/

/-- The first layer, rectified: the second region's left operand. -/
def act1 : Arr Ideal S100000x128 .f32 :=
  relu128 (layer128 (prod1 (m ((c : Thread nD τ).loc main_arg0)) (m ((c : Thread nD τ).loc main_arg2))) (srcIdx (m ((c : Thread nD τ).loc main_arg1))) (dstIdx (m ((c : Thread nD τ).loc main_arg1))) (weightCol (srcIdx (m ((c : Thread nD τ).loc main_arg1))) (dstIdx (m ((c : Thread nD τ).loc main_arg1)))) (m ((c : Thread nD τ).loc main_arg3)))

theorem operand1 : (W5 m ρ c (Proc.devRef .tc main_v47)) = act1 m c := by
  rw [Fold.W5_x, Fold.src2, Fold.dst2, Fold.wcol2, Fold.b1_2, region0, truncf_id]
  rfl

/-- The second layer, rectified: the third region's left operand. -/
def act2 : Arr Ideal S100000x64 .f32 :=
  relu64 (layer64 (prod2 (act1 m c) (m ((c : Thread nD τ).loc main_arg4))) (srcIdx (m ((c : Thread nD τ).loc main_arg1))) (dstIdx (m ((c : Thread nD τ).loc main_arg1))) (weightCol (srcIdx (m ((c : Thread nD τ).loc main_arg1))) (dstIdx (m ((c : Thread nD τ).loc main_arg1)))) (m ((c : Thread nD τ).loc main_arg5)))

theorem operand2 : (W9 m ρ c (Proc.devRef .tc main_v66)) = act2 m c := by
  rw [Fold.W9_x, Fold.src6, Fold.dst6, Fold.wcol6, Fold.a5_6, region1 m ρ c (act1 m c) (operand1 m ρ c), truncf_id]
  rfl

/-- The result buffer at the last boundary is the network of the launch contents of the eight arguments. -/
theorem result : W12 m ρ c (Proc.devRef .tc main_v84)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [Fold.W12_out, Fold.src10, Fold.dst10, Fold.wcol10, Fold.a7_10, region2 m ρ c (act2 m c) (operand2 m ρ c)]
  rfl

end Cert.KernelIdeal.Result

end
-- ==== Proof.RefFold.lean ====
/-
  The reference's buffers, read through the fold of its 172 host operations.

  The reference is one straight line of host operations; its run ends with every buffer at the fold of the
  operations' results over the launch contents.  The fold is cut into the three layers and the log-softmax; each
  piece is read at the buffer the next piece needs, as the same stage functions that describe the kernel's host
  operations, with the host's own dense product in the place of the parameter.  The flattened rows of the edge list
  are written once, in the first piece, and carried; the reference re-derives the endpoints and the weights from them
  in every layer.
-/
import proofs.«119956_j7559142441490_1_alg».proof.Proof.RefRun
import proofs.«119956_j7559142441490_1_alg».proof.Proof.HostStages
import Idealize.ShloMosaic.Lib.StableHlo.Run

set_option maxRecDepth 16384

noncomputable section

namespace Cert.ReferenceIdeal.Fold

open Cert.ReferenceIdeal Cert.ReferenceIdeal.Gen Cert.ReferenceIdeal.ValueP Cert.KernelIdeal.Stages
open Idealize.ShloMosaic Idealize.ShloMosaic.TcCoe Idealize.SL.Sem Idealize.ShloMosaic.StableHlo

variable {F : FTy → Type} [FloatOps F]

-- the row maximum is a fold over four million elements: it is compared by its arguments, never unfolded
attribute [local irreducible] Idealize.ShloMosaic.Host.reduce

/-- One pass that cuts a chunk out of the operation list, folds it, and reads each operation's result at its own
    buffer and any other buffer through it. -/
macro "fold_chunk" : tactic =>
  `(tactic| (simp (disch := decide) only [ops, List.take_succ_cons, List.take_zero, List.drop_succ_cons, List.drop_zero,
      after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

/-- Folding a concatenation is folding the parts in turn. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- So a fold can be cut anywhere. -/
theorem after_cut (k : Nat) (l : List (HloOp τ sig (Elt F))) (V : Valuation τ sig (Elt F)) :
    after l V = after (l.drop k) (after (l.take k) V) := by
  rw [← after_append, List.take_append_drop]

variable (V : Valuation τ sig (Elt F))

/-! ## The first layer: operations 1 … 56 -/

set_option maxHeartbeats 8000000 in
/-- The first layer's output, rectified. -/
theorem layer1 : after (ops.take 56) V (Proc.devRef .tc main_v44)
    = relu128 (layer128 (Host.dotGeneral dot_S100000x500_S500x128_S100000x128_1_0_0_1_n_n none (V (Proc.devRef .tc main_arg0)) (V (Proc.devRef .tc main_arg2)))
        (srcIdx (V (Proc.devRef .tc main_arg1))) (dstIdx (V (Proc.devRef .tc main_arg1))) (weightCol (srcIdx (V (Proc.devRef .tc main_arg1))) (dstIdx (V (Proc.devRef .tc main_arg1)))) (V (Proc.devRef .tc main_arg3))) := by
  fold_chunk <;> rfl

set_option maxHeartbeats 8000000 in
/-- The sources' row of the edge list, flattened. -/
theorem layer1_row0 : after (ops.take 56) V (Proc.devRef .tc main_v1) = flatRow ![0, 0] slices_S2x1600000_S1x1600000_0_0 (V (Proc.devRef .tc main_arg1)) := by
  fold_chunk <;> rfl

set_option maxHeartbeats 8000000 in
/-- The destinations' row, flattened. -/
theorem layer1_row1 : after (ops.take 56) V (Proc.devRef .tc main_v3) = flatRow ![1, 0] slices_S2x1600000_S1x1600000_1_0 (V (Proc.devRef .tc main_arg1)) := by
  fold_chunk <;> rfl
set_option maxHeartbeats 8000000 in
theorem layer1_arg4 : after (ops.take 56) V (Proc.devRef .tc main_arg4) = V (Proc.devRef .tc main_arg4) := by
  fold_chunk <;> rfl
set_option maxHeartbeats 8000000 in
theorem layer1_arg5 : after (ops.take 56) V (Proc.devRef .tc main_arg5) = V (Proc.devRef .tc main_arg5) := by
  fold_chunk <;> rfl
set_option maxHeartbeats 8000000 in
theorem layer1_arg6 : after (ops.take 56) V (Proc.devRef .tc main_arg6) = V (Proc.devRef .tc main_arg6) := by
  fold_chunk <;> rfl
set_option maxHeartbeats 8000000 in
theorem layer1_arg7 : after (ops.take 56) V (Proc.devRef .tc main_arg7) = V (Proc.devRef .tc main_arg7) := by
  fold_chunk <;> rfl

/-! ## The second layer: operations 57 … 108 -/

set_option maxHeartbeats 8000000 in
/-- The second layer's output, rectified, from the first's and the flattened rows. -/
theorem layer2 : after ((ops.drop 56).take 52) V (Proc.devRef .tc main_v85)
    = relu64 (layer64 (Host.dotGeneral dot_S100000x128_S128x64_S100000x64_1_0_0_1_n_n none (V (Proc.devRef .tc main_v44)) (V (Proc.devRef .tc main_arg4)))
        (withLoops (V (Proc.devRef .tc main_v1))) (withLoops (V (Proc.devRef .tc main_v3))) (weightCol (withLoops (V (Proc.devRef .tc main_v1))) (withLoops (V (Proc.devRef .tc main_v3)))) (V (Proc.devRef .tc main_arg5))) := by
  fold_chunk <;> rfl
set_option maxHeartbeats 8000000 in
theorem layer2_v1 : after ((ops.drop 56).take 52) V (Proc.devRef .tc main_v1) = V (Proc.devRef .tc main_v1) := by
  fold_chunk <;> rfl
set_option maxHeartbeats 8000000 in
theorem layer2_v3 : after ((ops.drop 56).take 52) V (Proc.devRef .tc main_v3) = V (Proc.devRef .tc main_v3) := by
  fold_chunk <;> rfl
set_option maxHeartbeats 8000000 in
theorem layer2_arg6 : after ((ops.drop 56).take 52) V (Proc.devRef .tc main_arg6) = V (Proc.devRef .tc main_arg6) := by
  fold_chunk <;> rfl
set_option maxHeartbeats 8000000 in
theorem layer2_arg7 : after ((ops.drop 56).take 52) V (Proc.devRef .tc main_arg7) = V (Proc.devRef .tc main_arg7) := by
  fold_chunk <;> rfl

/-! ## The third layer: operations 109 … 157 -/

set_option maxHeartbeats 8000000 in
/-- The third layer's output from the second's and the flattened rows. -/
theorem layer3 : after (((ops.drop 56).drop 52).take 49) V (Proc.devRef .tc main_v125)
    = layer40 (Host.dotGeneral dot_S100000x64_S64x40_S100000x40_1_0_0_1_n_n none (V (Proc.devRef .tc main_v85)) (V (Proc.devRef .tc main_arg6)))
        (withLoops (V (Proc.devRef .tc main_v1))) (withLoops (V (Proc.devRef .tc main_v3))) (weightCol (withLoops (V (Proc.devRef .tc main_v1))) (withLoops (V (Proc.devRef .tc main_v3)))) (V (Proc.devRef .tc main_arg7)) := by
  fold_chunk <;> rfl

/-! ## The log-softmax: operations 158 … 172 -/

set_option maxHeartbeats 4000000 in
/-- The fifteen operations of the row-wise log-softmax, whatever their payloads: the builders that carry a buffer's
    type beside it make the same operations as the plain builders, the types being the buffers' own. -/
theorem softmax_builders
    (p0 : (⟨S_, .f32⟩ : BufTy).Contents (Elt F))
    (p1 : (⟨S100000x40, .f32⟩ : BufTy).Contents (Elt F) → (⟨S_, .f32⟩ : BufTy).Contents (Elt F) → (⟨S100000, .f32⟩ : BufTy).Contents (Elt F))
    (p2 : (⟨S_, .f32⟩ : BufTy).Contents (Elt F))
    (p3 : (⟨S_, .f32⟩ : BufTy).Contents (Elt F) → (⟨S100000, .f32⟩ : BufTy).Contents (Elt F))
    (p4 : (⟨S100000, .f32⟩ : BufTy).Contents (Elt F) → (⟨S100000, .f32⟩ : BufTy).Contents (Elt F) → (⟨S100000, .f32⟩ : BufTy).Contents (Elt F))
    (p5 : (⟨S100000, .f32⟩ : BufTy).Contents (Elt F) → (⟨S100000x1, .f32⟩ : BufTy).Contents (Elt F))
    (p6 : (⟨S100000x1, .f32⟩ : BufTy).Contents (Elt F) → (⟨S100000x40, .f32⟩ : BufTy).Contents (Elt F))
    (p7 : (⟨S100000x40, .f32⟩ : BufTy).Contents (Elt F) → (⟨S100000x40, .f32⟩ : BufTy).Contents (Elt F) → (⟨S100000x40, .f32⟩ : BufTy).Contents (Elt F))
    (p8 : (⟨S100000x40, .f32⟩ : BufTy).Contents (Elt F) → (⟨S100000x40, .f32⟩ : BufTy).Contents (Elt F))
    (p9 : (⟨S_, .f32⟩ : BufTy).Contents (Elt F))
    (p10 : (⟨S100000x40, .f32⟩ : BufTy).Contents (Elt F) → (⟨S_, .f32⟩ : BufTy).Contents (Elt F) → (⟨S100000, .f32⟩ : BufTy).Contents (Elt F))
    (p11 : (⟨S100000, .f32⟩ : BufTy).Contents (Elt F) → (⟨S100000x1, .f32⟩ : BufTy).Contents (Elt F))
    (p12 : (⟨S100000x1, .f32⟩ : BufTy).Contents (Elt F) → (⟨S100000x1, .f32⟩ : BufTy).Contents (Elt F))
    (p13 : (⟨S100000x1, .f32⟩ : BufTy).Contents (Elt F) → (⟨S100000x40, .f32⟩ : BufTy).Contents (Elt F))
    (p14 : (⟨S100000x40, .f32⟩ : BufTy).Contents (Elt F) → (⟨S100000x40, .f32⟩ : BufTy).Contents (Elt F) → (⟨S100000x40, .f32⟩ : BufTy).Contents (Elt F)) :
    ([ StableHlo.TRef.nullary (.of main_call2_cst : StableHlo.TRef sig ⟨S_, .f32⟩) p0,
      StableHlo.TRef.binary (.of main_v125 : StableHlo.TRef sig ⟨S100000x40, .f32⟩) (.of main_call2_cst : StableHlo.TRef sig ⟨S_, .f32⟩) (.of main_call2_v0 : StableHlo.TRef sig ⟨S100000, .f32⟩) p1,
      StableHlo.TRef.nullary (.of main_call2_cst_0 : StableHlo.TRef sig ⟨S_, .f32⟩) p2,
      StableHlo.TRef.unary (.of main_call2_cst_0 : StableHlo.TRef sig ⟨S_, .f32⟩) (.of main_call2_v1 : StableHlo.TRef sig ⟨S100000, .f32⟩) p3,
      StableHlo.TRef.binary (.of main_call2_v1 : StableHlo.TRef sig ⟨S100000, .f32⟩) (.of main_call2_v0 : StableHlo.TRef sig ⟨S100000, .f32⟩) (.of main_call2_v2 : StableHlo.TRef sig ⟨S100000, .f32⟩) p4,
      StableHlo.TRef.unary (.of main_call2_v2 : StableHlo.TRef sig ⟨S100000, .f32⟩) (.of main_call2_v3 : StableHlo.TRef sig ⟨S100000x1, .f32⟩) p5,
      StableHlo.TRef.unary (.of main_call2_v3 : StableHlo.TRef sig ⟨S100000x1, .f32⟩) (.of main_call2_v4 : StableHlo.TRef sig ⟨S100000x40, .f32⟩) p6,
      StableHlo.TRef.binary (.of main_v125 : StableHlo.TRef sig ⟨S100000x40, .f32⟩) (.of main_call2_v4 : StableHlo.TRef sig ⟨S100000x40, .f32⟩) (.of main_call2_v5 : StableHlo.TRef sig ⟨S100000x40, .f32⟩) p7,
      StableHlo.TRef.unary (.of main_call2_v5 : StableHlo.TRef sig ⟨S100000x40, .f32⟩) (.of main_call2_v6 : StableHlo.TRef sig ⟨S100000x40, .f32⟩) p8,
      StableHlo.TRef.nullary (.of main_call2_cst_1 : StableHlo.TRef sig ⟨S_, .f32⟩) p9,
      StableHlo.TRef.binary (.of main_call2_v6 : StableHlo.TRef sig ⟨S100000x40, .f32⟩) (.of main_call2_cst_1 : StableHlo.TRef sig ⟨S_, .f32⟩) (.of main_call2_v7 : StableHlo.TRef sig ⟨S100000, .f32⟩) p10,
      StableHlo.TRef.unary (.of main_call2_v7 : StableHlo.TRef sig ⟨S100000, .f32⟩) (.of main_call2_v8 : StableHlo.TRef sig ⟨S100000x1, .f32⟩) p11,
      StableHlo.TRef.unary (.of main_call2_v8 : StableHlo.TRef sig ⟨S100000x1, .f32⟩) (.of main_call2_v9 : StableHlo.TRef sig ⟨S100000x1, .f32⟩) p12,
      StableHlo.TRef.unary (.of main_call2_v9 : StableHlo.TRef sig ⟨S100000x1, .f32⟩) (.of main_call2_v10 : StableHlo.TRef sig ⟨S100000x40, .f32⟩) p13,
      StableHlo.TRef.binary (.of main_call2_v5 : StableHlo.TRef sig ⟨S100000x40, .f32⟩) (.of main_call2_v10 : StableHlo.TRef sig ⟨S100000x40, .f32⟩) (.of main_v126 : StableHlo.TRef sig ⟨S100000x40, .f32⟩) p14 ] : List (HloOp τ sig (Elt F)))
    = [ StableHlo.nullary main_call2_cst p0,
      StableHlo.binary main_v125 main_call2_cst main_call2_v0 p1,
      StableHlo.nullary main_call2_cst_0 p2,
      StableHlo.unary main_call2_cst_0 main_call2_v1 p3,
      StableHlo.binary main_call2_v1 main_call2_v0 main_call2_v2 p4,
      StableHlo.unary main_call2_v2 main_call2_v3 p5,
      StableHlo.unary main_call2_v3 main_call2_v4 p6,
      StableHlo.binary main_v125 main_call2_v4 main_call2_v5 p7,
      StableHlo.unary main_call2_v5 main_call2_v6 p8,
      StableHlo.nullary main_call2_cst_1 p9,
      StableHlo.binary main_call2_v6 main_call2_cst_1 main_call2_v7 p10,
      StableHlo.unary main_call2_v7 main_call2_v8 p11,
      StableHlo.unary main_call2_v8 main_call2_v9 p12,
      StableHlo.unary main_call2_v9 main_call2_v10 p13,
      StableHlo.binary main_call2_v5 main_call2_v10 main_v126 p14 ] := rfl

/-- The log-softmax's operations, plainly built. -/
abbrev softmaxOps : List (HloOp τ sig (Elt F)) :=
  [ StableHlo.nullary main_call2_cst (constant S_ .f32 0xFF800000#32 : (⟨S_, .f32⟩ : BufTy).Contents (Elt F)),
    StableHlo.binary main_v125 main_call2_cst main_call2_v0 (fun x v => Host.reduce FloatOps.maximumf x v reducesTo_S100000x40_S100000_d1 h_S_ : (⟨S100000x40, .f32⟩ : BufTy).Contents (Elt F) → (⟨S_, .f32⟩ : BufTy).Contents (Elt F) → (⟨S100000, .f32⟩ : BufTy).Contents (Elt F)),
    StableHlo.nullary main_call2_cst_0 (constant S_ .f32 0xFF800000#32 : (⟨S_, .f32⟩ : BufTy).Contents (Elt F)),
    StableHlo.unary main_call2_cst_0 main_call2_v1 (broadcastInDim S100000 ![] bcast_S_S100000 : (⟨S_, .f32⟩ : BufTy).Contents (Elt F) → (⟨S100000, .f32⟩ : BufTy).Contents (Elt F)),
    StableHlo.binary main_call2_v1 main_call2_v0 main_call2_v2 (maximumf : (⟨S100000, .f32⟩ : BufTy).Contents (Elt F) → (⟨S100000, .f32⟩ : BufTy).Contents (Elt F) → (⟨S100000, .f32⟩ : BufTy).Contents (Elt F)),
    StableHlo.unary main_call2_v2 main_call2_v3 (broadcastInDim S100000x1 ![0] bcast_S100000_S100000x1_0 : (⟨S100000, .f32⟩ : BufTy).Contents (Elt F) → (⟨S100000x1, .f32⟩ : BufTy).Contents (Elt F)),
    StableHlo.unary main_call2_v3 main_call2_v4 (broadcastInDim S100000x40 ![0, 1] bcast_S100000x1_S100000x40_0_1 : (⟨S100000x1, .f32⟩ : BufTy).Contents (Elt F) → (⟨S100000x40, .f32⟩ : BufTy).Contents (Elt F)),
    StableHlo.binary main_v125 main_call2_v4 main_call2_v5 (subf : (⟨S100000x40, .f32⟩ : BufTy).Contents (Elt F) → (⟨S100000x40, .f32⟩ : BufTy).Contents (Elt F) → (⟨S100000x40, .f32⟩ : BufTy).Contents (Elt F)),
    StableHlo.unary main_call2_v5 main_call2_v6 (Host.exp : (⟨S100000x40, .f32⟩ : BufTy).Contents (Elt F) → (⟨S100000x40, .f32⟩ : BufTy).Contents (Elt F)),
    StableHlo.nullary main_call2_cst_1 (constant S_ .f32 0x00000000#32 : (⟨S_, .f32⟩ : BufTy).Contents (Elt F)),
    StableHlo.binary main_call2_v6 main_call2_cst_1 main_call2_v7 (fun x v => Host.reduceAdd x v reducesTo_S100000x40_S100000_d1 h_S_ : (⟨S100000x40, .f32⟩ : BufTy).Contents (Elt F) → (⟨S_, .f32⟩ : BufTy).Contents (Elt F) → (⟨S100000, .f32⟩ : BufTy).Contents (Elt F)),
    StableHlo.unary main_call2_v7 main_call2_v8 (broadcastInDim S100000x1 ![0] bcast_S100000_S100000x1_0 : (⟨S100000, .f32⟩ : BufTy).Contents (Elt F) → (⟨S100000x1, .f32⟩ : BufTy).Contents (Elt F)),
    StableHlo.unary main_call2_v8 main_call2_v9 (Host.log : (⟨S100000x1, .f32⟩ : BufTy).Contents (Elt F) → (⟨S100000x1, .f32⟩ : BufTy).Contents (Elt F)),
    StableHlo.unary main_call2_v9 main_call2_v10 (broadcastInDim S100000x40 ![0, 1] bcast_S100000x1_S100000x40_0_1 : (⟨S100000x1, .f32⟩ : BufTy).Contents (Elt F) → (⟨S100000x40, .f32⟩ : BufTy).Contents (Elt F)),
    StableHlo.binary main_call2_v5 main_call2_v10 main_v126 (subf : (⟨S100000x40, .f32⟩ : BufTy).Contents (Elt F) → (⟨S100000x40, .f32⟩ : BufTy).Contents (Elt F) → (⟨S100000x40, .f32⟩ : BufTy).Contents (Elt F)) ]

set_option maxHeartbeats 8000000 in
/-- The last fifteen operations of the list are the log-softmax's. -/
theorem softmaxOps_eq : ((((ops.drop 56).drop 52).drop 49) : List (HloOp τ sig (Elt F))) = softmaxOps := by
  simp only [ops, List.drop_succ_cons, List.drop_zero]
  exact softmax_builders
    (constant S_ .f32 0xFF800000#32)
    (fun x v => Host.reduce FloatOps.maximumf x v reducesTo_S100000x40_S100000_d1 h_S_)
    (constant S_ .f32 0xFF800000#32)
    (broadcastInDim S100000 ![] bcast_S_S100000)
    (maximumf)
    (broadcastInDim S100000x1 ![0] bcast_S100000_S100000x1_0)
    (broadcastInDim S100000x40 ![0, 1] bcast_S100000x1_S100000x40_0_1)
    (subf)
    (Host.exp)
    (constant S_ .f32 0x00000000#32)
    (fun x v => Host.reduceAdd x v reducesTo_S100000x40_S100000_d1 h_S_)
    (broadcastInDim S100000x1 ![0] bcast_S100000_S100000x1_0)
    (Host.log)
    (broadcastInDim S100000x40 ![0, 1] bcast_S100000x1_S100000x40_0_1)
    (subf)

set_option maxHeartbeats 4000000 in
/-- They take a valuation's third-layer buffer to its row-wise log-softmax. -/
theorem softmax_fold : after (((ops.drop 56).drop 52).drop 49) V (Proc.devRef .tc main_v126) = logSoftmax (V (Proc.devRef .tc main_v125)) := by
  rw [softmaxOps_eq]
  dsimp only [softmaxOps]
  after_results_simp <;> rfl

/-! ## The whole fold -/

/-- The result buffer after all 172 operations: the log-softmax of the third layer of the host's product of the
    rectified second layer of the host's product of the rectified first layer of the host's product. -/
theorem result : after ops V (Proc.devRef .tc main_v126)
    = logSoftmax (layer40 (Host.dotGeneral dot_S100000x64_S64x40_S100000x40_1_0_0_1_n_n none
        (relu64 (layer64 (Host.dotGeneral dot_S100000x128_S128x64_S100000x64_1_0_0_1_n_n none
          (relu128 (layer128 (Host.dotGeneral dot_S100000x500_S500x128_S100000x128_1_0_0_1_n_n none (V (Proc.devRef .tc main_arg0)) (V (Proc.devRef .tc main_arg2)))
            (srcIdx (V (Proc.devRef .tc main_arg1))) (dstIdx (V (Proc.devRef .tc main_arg1))) (weightCol (srcIdx (V (Proc.devRef .tc main_arg1))) (dstIdx (V (Proc.devRef .tc main_arg1)))) (V (Proc.devRef .tc main_arg3))))
          (V (Proc.devRef .tc main_arg4)))
          (srcIdx (V (Proc.devRef .tc main_arg1))) (dstIdx (V (Proc.devRef .tc main_arg1))) (weightCol (srcIdx (V (Proc.devRef .tc main_arg1))) (dstIdx (V (Proc.devRef .tc main_arg1)))) (V (Proc.devRef .tc main_arg5))))
        (V (Proc.devRef .tc main_arg6)))
        (srcIdx (V (Proc.devRef .tc main_arg1))) (dstIdx (V (Proc.devRef .tc main_arg1))) (weightCol (srcIdx (V (Proc.devRef .tc main_arg1))) (dstIdx (V (Proc.devRef .tc main_arg1)))) (V (Proc.devRef .tc main_arg7))) := by
  rw [after_cut 56 ops V, after_cut 52 (ops.drop 56), after_cut 49 ((ops.drop 56).drop 52)]
  rw [softmax_fold, layer3, layer2,
    layer2_v1, layer2_v3, layer2_arg6, layer2_arg7,
    layer1, layer1_row0, layer1_row1, layer1_arg4, layer1_arg5, layer1_arg6, layer1_arg7]
  rfl

end Cert.ReferenceIdeal.Fold

end
-- ==== Proof.RefValue.lean ====
/-
  The reference's result buffer holds the network of its arguments.

  The reference's fold was read in stages with the host's dense product in the layers; on the extended reals that
  product, entry by entry, is the plain sum over the features of (row, feature) times (feature, column) — the
  same sum the kernel's row blocks compute.
-/
import proofs.«119956_j7559142441490_1_alg».proof.Proof.RefFold
import proofs.«119956_j7559142441490_1_alg».proof.Proof.RefRead
import proofs.«119956_j7559142441490_1_alg».proof.Proof.Network
import Idealize.ShloMosaic.PureOps.Ideal.Laws
import Idealize.ShloMosaic.Lib.ValueIdx

set_option maxRecDepth 16384

noncomputable section

namespace Cert.ReferenceIdeal.Result

open Cert.ReferenceIdeal Cert.ReferenceIdeal.Gen Cert.ReferenceIdeal.ValueP Cert.ReferenceIdeal.ReadP Cert.KernelIdeal.Stages Cert.Gcn
open Idealize.ShloMosaic Idealize.ShloMosaic.TcCoe Idealize.SL.Sem Idealize.ShloMosaic.StableHlo

-- the row maximum is a fold over four million elements: it is compared by its arguments, never unfolded
attribute [local irreducible] Idealize.ShloMosaic.Host.reduce

/-- The host's product of layer 1 at an index: the sum over the 500 features (the reference module's own reading of
    this `dot_general`, for any operands). -/
theorem dot1_apply (X : FVec Ideal S100000x500 .f32) (W : FVec Ideal S500x128 .f32) (i : S100000x128.Idx) :
    Host.dotGeneral (F := Ideal) dot_S100000x500_S500x128_S100000x128_1_0_0_1_n_n none X W i
      = ∑ k : Fin 500, X (lidx_main_v4 i k) * W (ridx_main_v4 i k) := by
  simp only [Host.dotGeneral]
  rw [Ideal.dotGeneral_apply, ← Equiv.sum_comp (ValueIdx.contrEquiv1 dot_S100000x500_S500x128_S100000x128_1_0_0_1_n_n 500 rfl rfl).symm]
  refine Finset.sum_congr rfl fun k _ => ?_
  have hk := ValueIdx.contrEquiv1_symm_val dot_S100000x500_S500x128_S100000x128_1_0_0_1_n_n 500 rfl rfl k
  have el : dot_S100000x500_S500x128_S100000x128_1_0_0_1_n_n.lhsIdx i ((ValueIdx.contrEquiv1 dot_S100000x500_S500x128_S100000x128_1_0_0_1_n_n 500 rfl rfl).symm k) = lidx_main_v4 i k := funext fun a => Fin.ext (by
    match a with
    | ⟨0, _⟩ => exact lhs_main_v4_0 _ _
    | ⟨1, _⟩ => exact (lhs_main_v4_1 _ _).trans hk)
  have er : dot_S100000x500_S500x128_S100000x128_1_0_0_1_n_n.rhsIdx i ((ValueIdx.contrEquiv1 dot_S100000x500_S500x128_S100000x128_1_0_0_1_n_n 500 rfl rfl).symm k) = ridx_main_v4 i k := funext fun a => Fin.ext (by
    match a with
    | ⟨0, _⟩ => exact (rhs_main_v4_0 _ _).trans hk
    | ⟨1, _⟩ => exact rhs_main_v4_1 _ _)
  rw [el, er]

/-- The reference module's operand indices are (row, feature) and (feature, column). -/
theorem lidx1 (i : S100000x128.Idx) (k : Fin 500) : lidx_main_v4 i k = lhsAt i k :=
  funext fun a => Fin.ext (by match a with | ⟨0, _⟩ => rfl | ⟨1, _⟩ => rfl)
theorem ridx1 (i : S100000x128.Idx) (k : Fin 500) : ridx_main_v4 i k = rhsAt i k :=
  funext fun a => Fin.ext (by match a with | ⟨0, _⟩ => rfl | ⟨1, _⟩ => rfl)

/-- So the host's product of layer 1 is the plain product. -/
theorem dot1_eq (X : FVec Ideal S100000x500 .f32) (W : FVec Ideal S500x128 .f32) :
    Host.dotGeneral (F := Ideal) dot_S100000x500_S500x128_S100000x128_1_0_0_1_n_n none X W = prod1 X W := by
  funext i
  rw [dot1_apply]
  exact Finset.sum_congr rfl fun k _ => by rw [lidx1, ridx1]

/-- The host's product of layer 2 at an index: the sum over the 128 features (the reference module's own reading of
    this `dot_general`, for any operands). -/
theorem dot2_apply (X : FVec Ideal S100000x128 .f32) (W : FVec Ideal S128x64 .f32) (i : S100000x64.Idx) :
    Host.dotGeneral (F := Ideal) dot_S100000x128_S128x64_S100000x64_1_0_0_1_n_n none X W i
      = ∑ k : Fin 128, X (lidx_main_v45 i k) * W (ridx_main_v45 i k) := by
  simp only [Host.dotGeneral]
  rw [Ideal.dotGeneral_apply, ← Equiv.sum_comp (ValueIdx.contrEquiv1 dot_S100000x128_S128x64_S100000x64_1_0_0_1_n_n 128 rfl rfl).symm]
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx i ((ValueIdx.contrEquiv1 dot_S100000x128_S128x64_S100000x64_1_0_0_1_n_n 128 rfl rfl).symm k) = lidx_main_v45 i k := funext fun a => Fin.ext (by
    match a with
    | ⟨0, _⟩ => exact lhs_main_v45_0 _ _
    | ⟨1, _⟩ => exact (lhs_main_v45_1 _ _).trans hk)
  have er : dot_S100000x128_S128x64_S100000x64_1_0_0_1_n_n.rhsIdx i ((ValueIdx.contrEquiv1 dot_S100000x128_S128x64_S100000x64_1_0_0_1_n_n 128 rfl rfl).symm k) = ridx_main_v45 i k := funext fun a => Fin.ext (by
    match a with
    | ⟨0, _⟩ => exact (rhs_main_v45_0 _ _).trans hk
    | ⟨1, _⟩ => exact rhs_main_v45_1 _ _)
  rw [el, er]

/-- The reference module's operand indices are (row, feature) and (feature, column). -/
theorem lidx2 (i : S100000x64.Idx) (k : Fin 128) : lidx_main_v45 i k = lhsAt i k :=
  funext fun a => Fin.ext (by match a with | ⟨0, _⟩ => rfl | ⟨1, _⟩ => rfl)
theorem ridx2 (i : S100000x64.Idx) (k : Fin 128) : ridx_main_v45 i k = rhsAt i k :=
  funext fun a => Fin.ext (by match a with | ⟨0, _⟩ => rfl | ⟨1, _⟩ => rfl)

/-- So the host's product of layer 2 is the plain product. -/
theorem dot2_eq (X : FVec Ideal S100000x128 .f32) (W : FVec Ideal S128x64 .f32) :
    Host.dotGeneral (F := Ideal) dot_S100000x128_S128x64_S100000x64_1_0_0_1_n_n none X W = prod2 X W := by
  funext i
  rw [dot2_apply]
  exact Finset.sum_congr rfl fun k _ => by rw [lidx2, ridx2]

/-- The host's product of layer 3 at an index: the sum over the 64 features (the reference module's own reading of
    this `dot_general`, for any operands). -/
theorem dot3_apply (X : FVec Ideal S100000x64 .f32) (W : FVec Ideal S64x40 .f32) (i : S100000x40.Idx) :
    Host.dotGeneral (F := Ideal) dot_S100000x64_S64x40_S100000x40_1_0_0_1_n_n none X W i
      = ∑ k : Fin 64, X (lidx_main_v86 i k) * W (ridx_main_v86 i k) := by
  simp only [Host.dotGeneral]
  rw [Ideal.dotGeneral_apply, ← Equiv.sum_comp (ValueIdx.contrEquiv1 dot_S100000x64_S64x40_S100000x40_1_0_0_1_n_n 64 rfl rfl).symm]
  refine Finset.sum_congr rfl fun k _ => ?_
  have hk := ValueIdx.contrEquiv1_symm_val dot_S100000x64_S64x40_S100000x40_1_0_0_1_n_n 64 rfl rfl k
  have el : dot_S100000x64_S64x40_S100000x40_1_0_0_1_n_n.lhsIdx i ((ValueIdx.contrEquiv1 dot_S100000x64_S64x40_S100000x40_1_0_0_1_n_n 64 rfl rfl).symm k) = lidx_main_v86 i k := funext fun a => Fin.ext (by
    match a with
    | ⟨0, _⟩ => exact lhs_main_v86_0 _ _
    | ⟨1, _⟩ => exact (lhs_main_v86_1 _ _).trans hk)
  have er : dot_S100000x64_S64x40_S100000x40_1_0_0_1_n_n.rhsIdx i ((ValueIdx.contrEquiv1 dot_S100000x64_S64x40_S100000x40_1_0_0_1_n_n 64 rfl rfl).symm k) = ridx_main_v86 i k := funext fun a => Fin.ext (by
    match a with
    | ⟨0, _⟩ => exact (rhs_main_v86_0 _ _).trans hk
    | ⟨1, _⟩ => exact rhs_main_v86_1 _ _)
  rw [el, er]

/-- The reference module's operand indices are (row, feature) and (feature, column). -/
theorem lidx3 (i : S100000x40.Idx) (k : Fin 64) : lidx_main_v86 i k = lhsAt i k :=
  funext fun a => Fin.ext (by match a with | ⟨0, _⟩ => rfl | ⟨1, _⟩ => rfl)
theorem ridx3 (i : S100000x40.Idx) (k : Fin 64) : ridx_main_v86 i k = rhsAt i k :=
  funext fun a => Fin.ext (by match a with | ⟨0, _⟩ => rfl | ⟨1, _⟩ => rfl)

/-- So the host's product of layer 3 is the plain product. -/
theorem dot3_eq (X : FVec Ideal S100000x64 .f32) (W : FVec Ideal S64x40 .f32) :
    Host.dotGeneral (F := Ideal) dot_S100000x64_S64x40_S100000x40_1_0_0_1_n_n none X W = prod3 X W := by
  funext i
  rw [dot3_apply]
  exact Finset.sum_congr rfl fun k _ => by rw [lidx3, ridx3]

set_option maxHeartbeats 4000000 in
/-- The result buffer after the reference's 172 operations is the network of the contents of the eight arguments. -/
theorem result (V : Valuation τ sig (Elt Ideal)) : after ops V (Proc.devRef .tc main_v126)
    = network (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [Fold.result, dot1_eq, dot2_eq, dot3_eq]
  rfl

end Cert.ReferenceIdeal.Result

end
-- ==== Proof.lean ====
/-
  A three-layer graph-convolution network — dense product, gather / weight / sum over 1700000 edges, bias; the first
  two layers rectified; a row-wise log-softmax at the end — computed two ways.

  The kernel runs each dense product as a Pallas region: ten grid points, each multiplying a block of 10000 rows by
  the whole weight matrix on the matrix unit, in bf16 with an f32 accumulator started at zero.  The reference takes
  the host's product of the whole matrices, in f32.  Over the extended reals a change of float format is the
  identity and a product into a zero accumulator is the plain sum over the features, so a row block of the kernel's
  product is a row block of the reference's, entry by entry, and the blocks tile the result.  Every other operation
  — the edge endpoints, the degrees and edge weights, the gathers and scatter-sums, the biases, the rectifiers, the
  log-softmax — is the same host operation in both programs, applied to the same values; the reference merely
  recomputes the edge weights in every layer.  So both result buffers hold one function of the eight arguments
  (`Cert.Gcn.network`), and no finiteness of the inputs is needed.

  The frames of the two kernel programs are the generated ones; the reference's frame is its run with the result
  dropped; the idealization rewrote nothing, so `preserves` is trivial.
-/
import proofs.«119956_j7559142441490_1_alg».proof.Defs
import proofs.«119956_j7559142441490_1_alg».proof.Proof.Gen.Kernel
import proofs.«119956_j7559142441490_1_alg».proof.Proof.Gen.Kernel.Skeleton
import proofs.«119956_j7559142441490_1_alg».proof.Proof.Gen.Kernel.Launch
import proofs.«119956_j7559142441490_1_alg».proof.Proof.Gen.Kernel.Points
import proofs.«119956_j7559142441490_1_alg».proof.Proof.Gen.Kernel.Frame
import proofs.«119956_j7559142441490_1_alg».proof.Proof.Gen.KernelIdeal
import proofs.«119956_j7559142441490_1_alg».proof.Proof.Gen.KernelIdeal.Skeleton
import proofs.«119956_j7559142441490_1_alg».proof.Proof.Gen.KernelIdeal.Launch
import proofs.«119956_j7559142441490_1_alg».proof.Proof.Gen.KernelIdeal.Points
import proofs.«119956_j7559142441490_1_alg».proof.Proof.Gen.KernelIdeal.Frame
import proofs.«119956_j7559142441490_1_alg».proof.Proof.Gen.ReferenceIdeal
import proofs.«119956_j7559142441490_1_alg».proof.Proof.Gen.Pre_finite_inputs
import proofs.«119956_j7559142441490_1_alg».proof.Proof.KernelRun
import proofs.«119956_j7559142441490_1_alg».proof.Proof.KernelValue
import proofs.«119956_j7559142441490_1_alg».proof.Proof.RefRun
import proofs.«119956_j7559142441490_1_alg».proof.Proof.RefValue
import Idealize.ShloMosaic.Adequacy
import Idealize.ShloMosaic.Init

set_option maxRecDepth 16384

noncomputable section

namespace Cert.Proof

open Idealize.ShloMosaic Idealize.SL.Sem

-- the row maximum is a fold over four million elements: it is compared by its arguments, never unfolded
attribute [local irreducible] Idealize.ShloMosaic.Host.reduce

theorem frame_kernel : Cert.frame_Kernel := fun m ρ _ => Cert.Kernel.Gen.frame m ρ

theorem frame_kernelIdeal : Cert.frame_KernelIdeal := fun m ρ _ => Cert.KernelIdeal.Gen.frame m ρ

/-- The reference's run, with what it says of the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both programs end with the network of the (agreeing) arguments in their result buffers. -/
theorem algebraic : Cert.algebraic_KernelIdeal_ReferenceIdeal := by
  intro m ρ m' ρ' _ hagree
  refine ⟨fun c => Cert.Gcn.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Result.result m ρ c), (h c).2⟩)
      (Cert.KernelIdeal.WholeRun.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.Result.result]
    obtain ⟨h0, h1, h2, h3, h4, h5, h6, h7⟩ := hagree c
    show Cert.Gcn.network (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) = _
    rw [h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
